-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4096 : Shape := ⟨3, ![4, 64, 4096]⟩
abbrev S_ : Shape := ⟨0, ![]⟩

class Facts : Prop where
  bcast_S_S4x64x4096 : S_.BroadcastsInDim S4x64x4096 (![] : Fin 0 → Fin S4x64x4096.rank)
  reducesTo_S4x64x4096_S_d0_1_2 : S4x64x4096.ReducesTo [0, 1, 2] S_
  h_S_ : 0 < S_.numel

variable [Facts]

def fn {F : FTy → Type} [FloatOps F] (main_arg0 : FVec F S4x64x4096 .f32) (main_arg1 : FVec F S4x64x4096 .f32) (main_arg2 : FVec F S4x64x4096 .f32) : IVec S_ 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_c : IVec S_ 1 := constantI S_ 1 1#1
  let main_v3 : IVec S_ 1 := (fun x v => Host.reduce IntOp.andi x v reducesTo_S4x64x4096_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_v9 : FVec F S4x64x4096 .f32 := Host.absf main_arg2
  let main_cst_2 : FVec F S_ .f32 := constant S_ .f32 0x7F800000#32
  let main_v10 : FVec F S4x64x4096 .f32 := broadcastInDim S4x64x4096 ![] bcast_S_S4x64x4096 main_cst_2
  let main_v11 : IVec S4x64x4096 1 := cmpf .olt main_v9 main_v10
  let main_c_3 : IVec S_ 1 := constantI S_ 1 1#1
  let main_v12 : IVec S_ 1 := (fun x v => Host.reduce IntOp.andi x v reducesTo_S4x64x4096_S_d0_1_2 h_S_) main_v11 main_c_3
  let main_v13 : IVec S_ 1 := andi main_v8 main_v12
  main_v13
-- ==== Kernel.lean ====
abbrev S4x64x4096 : Shape := ⟨3, ![4, 64, 4096]⟩
abbrev S4x128x4096 : Shape := ⟨3, ![4, 128, 4096]⟩
abbrev S1x64x2048 : Shape := ⟨3, ![1, 64, 2048]⟩
abbrev S1x64x1024 : Shape := ⟨3, ![1, 64, 1024]⟩
abbrev S1x128x1024 : Shape := ⟨3, ![1, 128, 1024]⟩
abbrev S1x1024 : Shape := ⟨2, ![1, 1024]⟩
abbrev S64x1024 : Shape := ⟨2, ![64, 1024]⟩
abbrev S64x2048 : Shape := ⟨2, ![64, 2048]⟩
abbrev S2048x1024 : Shape := ⟨2, ![2048, 1024]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S4x64x4096, .f32⟩
  | .hbm, ⟨1, _⟩ => ⟨S4x64x4096, .f32⟩
  | .hbm, ⟨2, _⟩ => ⟨S4x64x4096, .f32⟩
  | .hbm, ⟨3, _⟩ => ⟨S4x128x4096, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x1024, .f32⟩
  | .local _ .vmem, ⟨5, _⟩ => ⟨S1x64x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S2048x1024_S1024 : S2048x1024.Reduces [0] S1024
  shapeCasts_S1024_S1x1024 : S1024.ShapeCasts S1x1024
  broadcasts_S1x1024_S2048x1024 : S1x1024.Broadcasts S2048x1024
  broadcasts_S1x1024_S64x1024 : S1x1024.Broadcasts S64x1024
  inb_S1x128x1024_S1x64x1024_0_0_0 : ∀ a, (![0, 0, 0] : Fin 3 → Nat) a + S1x64x1024.size a ≤ S1x128x1024.size a
  shapeCasts_S64x1024_S1x64x1024 : S64x1024.ShapeCasts S1x64x1024
  inb_S1x128x1024_S1x64x1024_0_64_0 : ∀ a, (![0, 64, 0] : Fin 3 → Nat) a + S1x64x1024.size a ≤ S1x128x1024.size a
  dot_S64x2048_S64x1024_S2048x1024_0_0_1_1_n_n_wf : DotDims.WF S64x2048 S64x1024 S2048x1024 [0] [0] [1] [1] [] []
  dot_S64x2048_S2048x1024_S64x1024_1_0_0_1_n_n_wf : DotDims.WF S64x2048 S2048x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x64x4096.size a
  hwx0_0 : ∀ i : grid0.Coords, EltTy.bits .f32 = 32 ∨ (Rect.block (s := S4x64x4096) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S4x64x4096.size a
  hwx0_1 : ∀ i : grid0.Coords, EltTy.bits .f32 = 32 ∨ (Rect.block (s := S4x64x4096) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x64x4096.size a
  hwx0_2 : ∀ i : grid0.Coords, EltTy.bits .f32 = 32 ∨ (Rect.block (s := S4x64x4096) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S4x128x4096.size a
  hwx0_3 : ∀ i : grid0.Coords, EltTy.bits .f32 = 32 ∨ (Rect.block (s := S4x128x4096) S1x128x1024.size (cc0_transform_3 i) (hinb0_3 i)).WholeWords (EltTy.packing .f32)

variable [Facts₀]

def dot_S64x2048_S64x1024_S2048x1024_0_0_1_1_n_n : DotDims S64x2048 S64x1024 S2048x1024 where
  lhsContracting := [0]
  rhsContracting := [0]
  lhsNonContracting := [1]
  rhsNonContracting := [1]
  lhsBatch := []
  rhsBatch := []
  wf := dot_S64x2048_S64x1024_S2048x1024_0_0_1_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x64x4096 : Shape := ⟨3, ![4, 64, 4096]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4x128x4096 : Shape := ⟨3, ![4, 128, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S4x64x4096, .f32⟩
  | .hbm, ⟨2, _⟩ => ⟨S4x64x4096, .f32⟩
  | .hbm, ⟨3, _⟩ => ⟨S4x4096x4096, .f32⟩
  | .hbm, ⟨4, _⟩ => ⟨S_, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x1x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x64x4096, .f32⟩
  | .hbm, ⟨23, _⟩ => ⟨S4x128x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  concatenates_S4x64x4096_S4x64x4096_S4x128x4096_d1 : Shape.Concatenates [S4x64x4096, S4x64x4096] S4x128x4096 1
  dot_S4x64x4096_S4x64x4096_S4x4096x4096_1_1_2_2_0_0_wf : DotDims.WF S4x64x4096 S4x64x4096 S4x4096x4096 [1] [1] [2] [2] [0] [0]
  dot_S4x64x4096_S4x4096x4096_S4x64x4096_2_1_1_2_0_0_wf : DotDims.WF S4x64x4096 S4x4096x4096 S4x64x4096 [2] [1] [1] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x64x4096_S4x4096x4096_S4x64x4096_2_1_1_2_0_0 : DotDims S4x64x4096 S4x4096x4096 S4x64x4096 where
  lhsContracting := [2]
  rhsContracting := [1]
  lhsNonContracting := [1]
  rhsNonContracting := [2]
  lhsBatch := [0]
  rhsBatch := [0]
  wf := dot_S4x64x4096_S4x4096x4096_S4x64x4096_2_1_1_2_0_0_wf

class Facts : Prop extends Facts₀ where

variable [Facts]
-- ==== Proof.Pieces.lean ====
/-
  What each control case of the kernel body leaves in its buffers, as the body's pure payload terms.
  Even grid points (first key tile): the running shift, normalizer and numerator are reset and then updated once.
  Odd grid points (second key tile): they are updated from what the even point left, and the output block is stored.
-/
import proofs.«137399_j76948634075216_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After an even point the running shift is the reset value updated by the first key tile. -/
theorem sA0 (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec F S1x64x2048 .f32) (x1 : Vec F S1x64x2048 .f32) (x2 : Vec F S1x64x1024 .f32) :
    sout0_A_0 c i arg3 harg3 arg4 harg4 arg5 harg5 arg6 harg6 arg7 harg7 arg8 harg8 arg9 harg9 hc0 hc1 x0 x1 x2 = k0_pay1 (k0_pay10 x0 x2 k0_pay6) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024) hz2]
  simp only [View.readCov_unit_zero (S := S1x1024) _ hz2, View.readCov_unit_zero (S := S64x1024) _ hz2, View.readAt_eq_ld, harg3.read_unread, harg4.read_unread, harg5.read_unread,
    View.ld_unit_zero (S := S1x64x2048) hz3, View.ld_unit_zero (S := S1x64x1024) hz3]

/-- After an even point the running normalizer is the zero reset updated by the first key tile. -/
theorem sA1 (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec F S1x64x2048 .f32) (x1 : Vec F S1x64x2048 .f32) (x2 : Vec F S1x64x1024 .f32) :
    sout0_A_1 c i arg3 harg3 arg4 harg4 arg5 harg5 arg6 harg6 arg7 harg7 arg8 harg8 arg9 harg9 hc0 hc1 x0 x1 x2 = k0_pay2 (k0_pay13 x0 x2 k0_pay6 k0_pay7) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024) hz2]
  simp only [View.readCov_unit_zero (S := S1x1024) _ hz2, View.readCov_unit_zero (S := S64x1024) _ hz2, View.readAt_eq_ld, harg3.read_unread, harg4.read_unread, harg5.read_unread,
    View.ld_unit_zero (S := S1x64x2048) hz3, View.ld_unit_zero (S := S1x64x1024) hz3]

/-- After an even point the running numerator is the zero reset updated by the first key tile. -/
theorem sA2 (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec F S1x64x2048 .f32) (x1 : Vec F S1x64x2048 .f32) (x2 : Vec F S1x64x1024 .f32) :
    sout0_A_2 c i arg3 harg3 arg4 harg4 arg5 harg5 arg6 harg6 arg7 harg7 arg8 harg8 arg9 harg9 hc0 hc1 x0 x1 x2 = k0_pay3 (k0_pay14 x0 x2 x1 k0_pay6) (k0_pay15 x0 x2 k0_pay6 k0_pay8) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S64x1024) hz2]
  simp only [View.readCov_unit_zero (S := S1x1024) _ hz2, View.readCov_unit_zero (S := S64x1024) _ hz2, View.readAt_eq_ld, harg3.read_unread, harg4.read_unread, harg5.read_unread,
    View.ld_unit_zero (S := S1x64x2048) hz3, View.ld_unit_zero (S := S1x64x1024) hz3]

/-- At an odd point the output block is stored in two halves: rows 0..63 hold the updated numerator times the
    reciprocal of the updated normalizer, rows 64..127 the query block; both updates start from what the point
    before left (`xs0`, `xs1`, `xs2`). -/
theorem oB3 (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : ¬cond0_0 i) (hc1 : cond0_1 i) (x0 : Vec F S1x64x2048 .f32) (x1 : Vec F S1x64x2048 .f32) (x2 : Vec F S1x64x1024 .f32) (xs0 : Vec F S1x1024 .f32) (xs1 : Vec F S1x1024 .f32) (xs2 : Vec F S64x1024 .f32) :
    out0_B_3 c i arg3 harg3 arg4 harg4 arg5 harg5 arg6 harg6 arg7 harg7 arg8 harg8 arg9 harg9 hc0 hc1 x0 x1 x2 xs0 xs1 xs2
      = View.canon
          [(⟨Rect.unit ![0, 64, 0] S1x64x1024.size inb_S1x128x1024_S1x64x1024_0_64_0, k0_pay5 x2⟩ : View.Piece (Elt F) S1x128x1024 .f32),
           ⟨Rect.unit ![0, 0, 0] S1x64x1024.size inb_S1x128x1024_S1x64x1024_0_0_0,
              k0_pay4 (k0_pay3 (k0_pay14 x0 x2 x1 xs0) (k0_pay15 x0 x2 xs0 xs2)) (k0_pay2 (k0_pay13 x0 x2 xs0 xs1))⟩] := by
  unfold out0_B_3
  rw [View.read_writes_eq_canon _ _ _ (cover0_B_3 c i arg3 harg3 arg4 harg4 arg5 harg5 arg6 harg6 arg7 harg7 arg8 harg8 arg9 harg9 hc0 hc1 x0 x1 x2 xs0 xs1 xs2)]
  unfold kernelRun0_B
  dsimp only
  sl_unfold_words
  simp only [View.readCov_unit_zero (S := S1x1024) _ hz2, View.readCov_unit_zero (S := S64x1024) _ hz2, View.readAt_eq_ld,
    harg3.read_unread, harg4.read_unread, harg5.read_unread, harg7.read_unread, harg8.read_unread, harg9.read_unread,
    View.ld_unit_zero (S := S1x64x2048) hz3, View.ld_unit_zero (S := S1x64x1024) hz3,
    View.ld_unit_zero (S := S1x1024) hz2, View.ld_unit_zero (S := S64x1024) hz2]

end Cert.KernelIdeal.Pieces
end
-- ==== Proof.Spec.lean ====
/-
  Attention over keys, column by column, on the extended reals: the two arrangements this certificate compares.

  For a batch b and a query column q, key k has the score  s k = (∑ d, K[b,d,k] · Q[b,d,q]) scaled by 1/8.
  * The tiled arrangement visits the 4096 keys in two tiles of 2048. It keeps a running shift m (started at a
    finite negative number), a running normalizer l and a running numerator a; after a tile with scores s and
    values v:   m' = max m (max over the tile of s),   l' = e^(m-m')·l + ∑ e^(s k - m'),   a' = e^(m-m')·a + ∑ v k · e^(s k - m').
    The result is a · (1 / l) after the second tile.
  * The plain arrangement takes M = max over all keys of s and returns ∑ v k · (e^(s k - M) / ∑ e^(s j - M)).
  Rows 64..127 of the result hold the query array itself in both.
-/
import Idealize.ShloMosaic.PureOps.Ideal
import Idealize.ShloMosaic.Lib.ValueIdx

noncomputable section

namespace Attn

open Idealize.ShloMosaic Idealize.ShloMosaic.ValueIdx
open scoped BigOperators

/-- The constants the two programs spell, as the extended reals their patterns denote. -/
abbrev cNegBig : EReal := Ideal.ofBits .f32 0xF149F2CA#32
abbrev cScale : EReal := Ideal.ofBits .f32 0x3E000000#32
abbrev cZero : EReal := Ideal.ofBits .f32 0x00000000#32
abbrev cOne : EReal := Ideal.ofBits .f32 0x3F800000#32
abbrev cNegInf : EReal := Ideal.ofBits .f32 0xFF800000#32
abbrev c64 : EReal := Ideal.ofBits .f32 0x42800000#32

/-- A [4, 64, 4096] array and the [4, 128, 4096] result, as functions of their indices. -/
abbrev A3 : Type := (⟨3, ![4, 64, 4096]⟩ : Shape).Idx → EReal
abbrev R3 : Type := (⟨3, ![4, 128, 4096]⟩ : Shape).Idx → EReal

/-- Key `j` of tile `t` is key `2048·t + j`. -/
def tileK (t : Fin 2) (j : Fin 2048) : Fin 4096 := ⟨2048 * t.val + j.val, by have := t.isLt; have := j.isLt; omega⟩

/-- The maximum over a family, from the reductions' initial value -∞. -/
def famMax {n : Nat} (s : Fin n → EReal) : EReal := (Finset.univ : Finset (Fin n)).fold max cNegInf s

/-- One tile's update of the running shift, normalizer and numerator. -/
def stepM {n : Nat} (mp : EReal) (s : Fin n → EReal) : EReal := max mp (famMax s)
def stepL {n : Nat} (mp lp : EReal) (s : Fin n → EReal) : EReal :=
  Ideal.exp (mp - stepM mp s) * lp + ∑ k : Fin n, Ideal.exp (s k - stepM mp s)
def stepA {n : Nat} (mp ap : EReal) (s v : Fin n → EReal) : EReal :=
  Ideal.exp (mp - stepM mp s) * ap + ∑ k : Fin n, v k * Ideal.exp (s k - stepM mp s)

/-- The tiled arrangement's result for one column: two tiles, then the numerator times the normalizer's reciprocal. -/
def tiledOut (s0 s1 v0 v1 : Fin 2048 → EReal) : EReal :=
  stepA (stepM cNegBig s0) (stepA cNegBig cZero s0 v0) s1 v1
    * Ideal.div cOne (stepL (stepM cNegBig s0) (stepL cNegBig cZero s0) s1)

/-- The plain arrangement's result for one column. -/
def plainOut (s v : Fin 4096 → EReal) : EReal :=
  ∑ k : Fin 4096, v k * Ideal.div (Ideal.exp (s k - max cNegInf (famMax s)))
    (cZero + ∑ j : Fin 4096, Ideal.exp (s j - max cNegInf (famMax s)))

/-- The unscaled score of key `k` against query column `q` in batch `b`. -/
def dotKQ (K Q : A3) (b : Fin 4) (k q : Fin 4096) : EReal := ∑ d : Fin 64, K (ix3 b d k) * Q (ix3 b d q)

/-- The tiled program's result array. -/
def tiledArr (K V Q : A3) : R3 := fun i =>
  if h : (i 1).val < 64 then
    tiledOut (fun j => dotKQ K Q (i 0) (tileK 0 j) (i 2) * cScale) (fun j => dotKQ K Q (i 0) (tileK 1 j) (i 2) * cScale)
      (fun j => V (ix3 (i 0) ⟨(i 1).val, h⟩ (tileK 0 j))) (fun j => V (ix3 (i 0) ⟨(i 1).val, h⟩ (tileK 1 j)))
  else Q (ix3 (i 0) ⟨(i 1).val - 64, by have h2 : (i 1).val < 128 := (i 1).isLt; omega⟩ (i 2))

/-- The plain program's result array. -/
def plainArr (K V Q : A3) : R3 := fun i =>
  if h : (i 1).val < 64 then
    plainOut (fun k => Ideal.div (dotKQ K Q (i 0) k (i 2)) (Ideal.sqrt c64)) (fun k => V (ix3 (i 0) ⟨(i 1).val, h⟩ k))
  else Q (ix3 (i 0) ⟨(i 1).val - 64, by have h2 : (i 1).val < 128 := (i 1).isLt; omega⟩ (i 2))

end Attn

end
-- ==== Proof.Payload.lean ====
/-
  The kernel body's arithmetic read at an index, over the extended reals.
  For a key block k (64 features × 2048 keys), a query block (64 × 1024) and a value block (64 × 2048):
  the score of key j against query column q is (∑ d, k[d,j] · query[d,q]) · 1/8; the running shift, normalizer and
  numerator of a query column are updated from their previous values by Attn.stepM / stepL / stepA.
-/
import proofs.«137399_j76948634075216_2_alg».proof.Proof.Gen.KernelIdeal.Skeleton
import proofs.«137399_j76948634075216_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.Payload
open Cert.KernelIdeal Cert.KernelIdeal.Gen

/-- The score of key `j` of a key block against query column `q` of a query block. -/
def sc (kb : Vec Ideal S1x64x2048 .f32) (qb : Vec Ideal S1x64x1024 .f32) (q : Fin 1024) (j : Fin 2048) : EReal :=
  (∑ d : Fin 64, kb (ix3 (0 : Fin 1) d j) * qb (ix3 (0 : Fin 1) d q)) * Attn.cScale

/-! ### The score product: the feature axis (axis 0) of both operands is contracted -/

theorem kq_lhs_0 (i : S2048x1024.Idx) (q : dot_S64x2048_S64x1024_S2048x1024_0_0_1_1_n_n.contr.Idx) :
    (dot_S64x2048_S64x1024_S2048x1024_0_0_1_1_n_n.lhsIdx i q 0).val = (q ⟨0, by decide⟩).val :=
  dot_S64x2048_S64x1024_S2048x1024_0_0_1_1_n_n.lhsIdx_val_of_single rfl i q
theorem kq_lhs_1 (i : S2048x1024.Idx) (q : dot_S64x2048_S64x1024_S2048x1024_0_0_1_1_n_n.contr.Idx) :
    (dot_S64x2048_S64x1024_S2048x1024_0_0_1_1_n_n.lhsIdx i q 1).val = (i 0).val := by
  unfold DotDims.lhsIdx
  rw [dif_neg (show ¬(1 : Fin S64x2048.rank) ∈ dot_S64x2048_S64x1024_S2048x1024_0_0_1_1_n_n.lhsBatch by decide), dif_pos (show (1 : Fin S64x2048.rank) ∈ dot_S64x2048_S64x1024_S2048x1024_0_0_1_1_n_n.lhsNonContracting by decide)]
  rfl
theorem kq_rhs_0 (i : S2048x1024.Idx) (q : dot_S64x2048_S64x1024_S2048x1024_0_0_1_1_n_n.contr.Idx) :
    (dot_S64x2048_S64x1024_S2048x1024_0_0_1_1_n_n.rhsIdx i q 0).val = (q ⟨0, by decide⟩).val :=
  dot_S64x2048_S64x1024_S2048x1024_0_0_1_1_n_n.rhsIdx_val_of_single rfl i q
theorem kq_rhs_1 (i : S2048x1024.Idx) (q : dot_S64x2048_S64x1024_S2048x1024_0_0_1_1_n_n.contr.Idx) :
    (dot_S64x2048_S64x1024_S2048x1024_0_0_1_1_n_n.rhsIdx i q 1).val = (i 1).val := by
  unfold DotDims.rhsIdx
  rw [dif_neg (show ¬(1 : Fin S64x1024.rank) ∈ dot_S64x2048_S64x1024_S2048x1024_0_0_1_1_n_n.rhsBatch by decide), dif_pos (show (1 : Fin S64x1024.rank) ∈ dot_S64x2048_S64x1024_S2048x1024_0_0_1_1_n_n.rhsNonContracting by decide)]
  rfl

/-- The scaled scores of a key block against a query block. -/
theorem pay9_apply (kb : Vec Ideal S1x64x2048 .f32) (qb : Vec Ideal S1x64x1024 .f32) (j : Fin 2048) (q : Fin 1024) :
    k0_pay9 (F := Ideal) kb qb (ix2 j q) = sc kb qb q j := by
  unfold k0_pay9 sc
  rw [mulf_apply, broadcast_apply]
  simp only [matmul]
  rw [Ideal.matmul_constant_zero_apply, ← Equiv.sum_comp (contrEquiv1 dot_S64x2048_S64x1024_S2048x1024_0_0_1_1_n_n 64 rfl rfl).symm]
  refine congrArg₂ (· * ·) (Finset.sum_congr rfl fun e _ => ?_) rfl
  have hk := contrEquiv1_symm_val dot_S64x2048_S64x1024_S2048x1024_0_0_1_1_n_n 64 rfl rfl e
  have el : dot_S64x2048_S64x1024_S2048x1024_0_0_1_1_n_n.lhsIdx (ix2 j q) ((contrEquiv1 dot_S64x2048_S64x1024_S2048x1024_0_0_1_1_n_n 64 rfl rfl).symm e) = ix2 e j := funext fun a => Fin.ext (by
    match a with
    | ⟨0, _⟩ => exact (kq_lhs_0 _ _).trans hk
    | ⟨1, _⟩ => exact kq_lhs_1 _ _)
  have er : dot_S64x2048_S64x1024_S2048x1024_0_0_1_1_n_n.rhsIdx (ix2 j q) ((contrEquiv1 dot_S64x2048_S64x1024_S2048x1024_0_0_1_1_n_n 64 rfl rfl).symm e) = ix2 e q := funext fun a => Fin.ext (by
    match a with
    | ⟨0, _⟩ => exact (kq_rhs_0 _ _).trans hk
    | ⟨1, _⟩ => exact kq_rhs_1 _ _)
  rw [el, er, truncf_apply, truncf_apply]
  exact congrArg₂ (· * ·) (shapeCast_1ab_ab_apply kb _ e j) (shapeCast_1ab_ab_apply qb _ e q)

/-! ### Reductions along the key axis (axis 0 of a [2048, 1024] tile) -/

theorem lift_eq (q : Fin 1024) (j : Fin 2048) : reduces_S2048x1024_S1024.lift (ix1 q) j = ix2 j q :=
  funext fun a => Fin.ext (by
    match a with
    | ⟨0, _⟩ => rfl
    | ⟨1, _⟩ => rfl)

/-- The updated running shift of query column `q`. -/
theorem pay10_apply (kb : Vec Ideal S1x64x2048 .f32) (qb : Vec Ideal S1x64x1024 .f32) (mp : Vec Ideal S1x1024 .f32) (q : Fin 1024) :
    k0_pay10 (F := Ideal) kb qb mp (ix2 (0 : Fin 1) q) = Attn.stepM (mp (ix2 (0 : Fin 1) q)) (sc kb qb q) := by
  unfold k0_pay10 Attn.stepM Attn.famMax
  rw [maximumf_apply, shapeCast_a_1a_apply]
  have e : (k0_pay9 (F := Ideal) kb qb ∘ reduces_S2048x1024_S1024.lift (ix1 q)) = sc kb qb q :=
    funext fun j => (congrArg (k0_pay9 (F := Ideal) kb qb) (lift_eq q j)).trans (pay9_apply kb qb j q)
  refine congrArg (max _) ?_
  refine (Ideal.multiReduction_maximumf_single (k0_pay9 (F := Ideal) kb qb) 0xFF800000#32 reduces_S2048x1024_S1024 (.inl rfl) rfl (ix1 q)).trans ?_
  exact congrArg (fun f => Finset.fold max _ f Finset.univ) e

/-- The weight of key `j` for query column `q`: the exponential of its score less the updated shift. -/
theorem pay11_apply (kb : Vec Ideal S1x64x2048 .f32) (qb : Vec Ideal S1x64x1024 .f32) (mp : Vec Ideal S1x1024 .f32) (j : Fin 2048) (q : Fin 1024) :
    k0_pay11 (F := Ideal) kb qb mp (ix2 j q) = Ideal.exp (sc kb qb q j - Attn.stepM (mp (ix2 (0 : Fin 1) q)) (sc kb qb q)) := by
  unfold k0_pay11
  show Ideal.exp (k0_pay9 (F := Ideal) kb qb (ix2 j q) - broadcastTo S2048x1024 (k0_pay10 (F := Ideal) kb qb mp) broadcasts_S1x1024_S2048x1024 (ix2 j q)) = _
  rw [pay9_apply, broadcastTo_1b_ab_apply, pay10_apply]

/-- The factor that rescales what the previous tiles left: the exponential of the old shift less the new one. -/
theorem pay12_apply (kb : Vec Ideal S1x64x2048 .f32) (qb : Vec Ideal S1x64x1024 .f32) (mp : Vec Ideal S1x1024 .f32) (q : Fin 1024) :
    k0_pay12 (F := Ideal) kb qb mp (ix2 (0 : Fin 1) q) = Ideal.exp (mp (ix2 (0 : Fin 1) q) - Attn.stepM (mp (ix2 (0 : Fin 1) q)) (sc kb qb q)) := by
  unfold k0_pay12
  show Ideal.exp (mp (ix2 (0 : Fin 1) q) - k0_pay10 (F := Ideal) kb qb mp (ix2 (0 : Fin 1) q)) = _
  rw [pay10_apply]

/-- The updated running normalizer of query column `q`. -/
theorem pay13_apply (kb : Vec Ideal S1x64x2048 .f32) (qb : Vec Ideal S1x64x1024 .f32) (mp lp : Vec Ideal S1x1024 .f32) (q : Fin 1024) :
    k0_pay13 (F := Ideal) kb qb mp lp (ix2 (0 : Fin 1) q)
      = Attn.stepL (mp (ix2 (0 : Fin 1) q)) (lp (ix2 (0 : Fin 1) q)) (sc kb qb q) := by
  unfold k0_pay13 Attn.stepL
  rw [addf_apply, mulf_apply, pay12_apply, shapeCast_a_1a_apply]
  refine congrArg (fun z : EReal => Ideal.exp (mp (ix2 (0 : Fin 1) q) - Attn.stepM (mp (ix2 (0 : Fin 1) q)) (sc kb qb q)) * lp (ix2 (0 : Fin 1) q) + z) ?_
  refine (Ideal.multiReduction_add_single (k0_pay11 (F := Ideal) kb qb mp) 0x00000000#32 reduces_S2048x1024_S1024 (.inl rfl) rfl (ix1 q)).trans ?_
  exact Finset.sum_congr rfl fun j _ => (congrArg (k0_pay11 (F := Ideal) kb qb mp) (lift_eq q j)).trans (pay11_apply kb qb mp j q)

/-! ### The value product: the key axis (axis 1 of the values, axis 0 of the weights) is contracted -/

theorem vp_lhs_0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide), dif_pos (show (0 : Fin S64x2048.rank) ∈ dot_S64x2048_S2048x1024_S64x1024_1_0_0_1_n_n.lhsNonContracting by decide)]
  rfl
theorem vp_lhs_1 (i : S64x1024.Idx) (q : dot_S64x2048_S2048x1024_S64x1024_1_0_0_1_n_n.contr.Idx) :
    (dot_S64x2048_S2048x1024_S64x1024_1_0_0_1_n_n.lhsIdx i q 1).val = (q ⟨0, by decide⟩).val :=
  dot_S64x2048_S2048x1024_S64x1024_1_0_0_1_n_n.lhsIdx_val_of_single rfl i q
theorem vp_rhs_0 (i : S64x1024.Idx) (q : dot_S64x2048_S2048x1024_S64x1024_1_0_0_1_n_n.contr.Idx) :
    (dot_S64x2048_S2048x1024_S64x1024_1_0_0_1_n_n.rhsIdx i q 0).val = (q ⟨0, by decide⟩).val :=
  dot_S64x2048_S2048x1024_S64x1024_1_0_0_1_n_n.rhsIdx_val_of_single rfl i q
theorem vp_rhs_1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide), dif_pos (show (1 : Fin S2048x1024.rank) ∈ dot_S64x2048_S2048x1024_S64x1024_1_0_0_1_n_n.rhsNonContracting by decide)]
  rfl

/-- The weighted sum of the tile's values for feature `d` and query column `q`. -/
theorem pay14_apply (kb : Vec Ideal S1x64x2048 .f32) (qb : Vec Ideal S1x64x1024 .f32) (vb : Vec Ideal S1x64x2048 .f32) (mp : Vec Ideal S1x1024 .f32)
    (d : Fin 64) (q : Fin 1024) :
    k0_pay14 (F := Ideal) kb qb vb mp (ix2 d q)
      = ∑ j : Fin 2048, vb (ix3 (0 : Fin 1) d j) * Ideal.exp (sc kb qb q j - Attn.stepM (mp (ix2 (0 : Fin 1) q)) (sc kb qb q)) := by
  unfold k0_pay14
  simp only [matmul]
  rw [Ideal.matmul_constant_zero_apply, ← Equiv.sum_comp (contrEquiv1 dot_S64x2048_S2048x1024_S64x1024_1_0_0_1_n_n 2048 rfl rfl).symm]
  refine Finset.sum_congr rfl fun e _ => ?_
  have hk := contrEquiv1_symm_val dot_S64x2048_S2048x1024_S64x1024_1_0_0_1_n_n 2048 rfl rfl e
  have el : dot_S64x2048_S2048x1024_S64x1024_1_0_0_1_n_n.lhsIdx (ix2 d q) ((contrEquiv1 dot_S64x2048_S2048x1024_S64x1024_1_0_0_1_n_n 2048 rfl rfl).symm e) = ix2 d e := funext fun a => Fin.ext (by
    match a with
    | ⟨0, _⟩ => exact vp_lhs_0 _ _
    | ⟨1, _⟩ => exact (vp_lhs_1 _ _).trans hk)
  have er : dot_S64x2048_S2048x1024_S64x1024_1_0_0_1_n_n.rhsIdx (ix2 d q) ((contrEquiv1 dot_S64x2048_S2048x1024_S64x1024_1_0_0_1_n_n 2048 rfl rfl).symm e) = ix2 e q := funext fun a => Fin.ext (by
    match a with
    | ⟨0, _⟩ => exact (vp_rhs_0 _ _).trans hk
    | ⟨1, _⟩ => exact vp_rhs_1 _ _)
  rw [el, er, truncf_apply, truncf_apply, pay11_apply]
  exact congrArg (· * _) (shapeCast_1ab_ab_apply vb _ d e)

/-- What the previous tiles left of the numerator, rescaled. -/
theorem pay15_apply (kb : Vec Ideal S1x64x2048 .f32) (qb : Vec Ideal S1x64x1024 .f32) (mp : Vec Ideal S1x1024 .f32) (ap : Vec Ideal S64x1024 .f32)
    (d : Fin 64) (q : Fin 1024) :
    k0_pay15 (F := Ideal) kb qb mp ap (ix2 d q)
      = Ideal.exp (mp (ix2 (0 : Fin 1) q) - Attn.stepM (mp (ix2 (0 : Fin 1) q)) (sc kb qb q)) * ap (ix2 d q) := by
  unfold k0_pay15
  rw [mulf_apply, broadcastTo_1b_ab_apply, pay12_apply]

/-- The updated running numerator for feature `d` and query column `q`. -/
theorem pay3_apply (kb : Vec Ideal S1x64x2048 .f32) (qb : Vec Ideal S1x64x1024 .f32) (vb : Vec Ideal S1x64x2048 .f32) (mp : Vec Ideal S1x1024 .f32)
    (ap : Vec Ideal S64x1024 .f32) (d : Fin 64) (q : Fin 1024) :
    k0_pay3 (F := Ideal) (k0_pay14 kb qb vb mp) (k0_pay15 kb qb mp ap) (ix2 d q)
      = Attn.stepA (mp (ix2 (0 : Fin 1) q)) (ap (ix2 d q)) (sc kb qb q) (fun j => vb (ix3 (0 : Fin 1) d j)) := by
  unfold k0_pay3 Attn.stepA
  rw [shapeCast_self, addf_apply, pay15_apply, pay14_apply]

/-- The stored shift and normalizer are what was computed. -/
theorem pay1_eq (v : Vec Ideal S1x1024 .f32) : k0_pay1 (F := Ideal) v = v := by unfold k0_pay1; rw [shapeCast_self]
theorem pay2_eq (v : Vec Ideal S1x1024 .f32) : k0_pay2 (F := Ideal) v = v := by unfold k0_pay2; rw [shapeCast_self]

/-- The reset values: the finite negative shift, and zero for the normalizer and the numerator. -/
theorem pay6_apply (i : S1x1024.Idx) : k0_pay6 (F := Ideal) i = Attn.cNegBig := by unfold k0_pay6; rw [shapeCast_self]; rfl
theorem pay7_apply (i : S1x1024.Idx) : k0_pay7 (F := Ideal) i = Attn.cZero := by unfold k0_pay7; rw [shapeCast_self]; rfl
theorem pay8_apply (i : S64x1024.Idx) : k0_pay8 (F := Ideal) i = Attn.cZero := by unfold k0_pay8; rw [shapeCast_self]; rfl

/-- The first half of the output block: the numerator times the reciprocal of the normalizer. -/
theorem pay4_apply (a : Vec Ideal S64x1024 .f32) (l : Vec Ideal S1x1024 .f32) (d : Fin 64) (q : Fin 1024) :
    k0_pay4 (F := Ideal) a l (ix3 (0 : Fin 1) d q) = a (ix2 d q) * Ideal.div Attn.cOne (l (ix2 (0 : Fin 1) q)) := by
  unfold k0_pay4
  rw [shapeCast_ab_1ab_apply, mulf_apply, broadcastTo_1b_ab_apply, divf_apply, broadcast_apply]
  rfl

/-- The second half of the output block: the query block itself. -/
theorem pay5_apply (qb : Vec Ideal S1x64x1024 .f32) (d : Fin 64) (q : Fin 1024) :
    k0_pay5 (F := Ideal) qb (ix3 (0 : Fin 1) d q) = qb (ix3 (0 : Fin 1) d q) := by
  unfold k0_pay5
  rw [shapeCast_ab_1ab_apply, shapeCast_1ab_ab_apply]

end Cert.KernelIdeal.Payload
end
-- ==== Proof.Blocks.lean ====
/-
  What the two kinds of grid point leave, read at an index, as the column updates of Attn:
  an even point leaves, for query column q, the shift, normalizer and numerator after the first key tile from the reset
  values; an odd point stores, in rows 0..63 of the output block, the numerator after the second key tile times the
  reciprocal of the normalizer after the second key tile, and in rows 64..127 the query block.
-/
import proofs.«137399_j76948634075216_2_alg».proof.Proof.Pieces
import proofs.«137399_j76948634075216_2_alg».proof.Proof.Payload

set_option maxRecDepth 16384

noncomputable section

open Idealize.ShloMosaic Idealize.ShloMosaic.TcCoe Idealize.ShloMosaic.ValueIdx Idealize.SL.Sem
open scoped BigOperators

namespace Cert.KernelIdeal.Blocks
open Cert.KernelIdeal Cert.KernelIdeal.Gen Cert.KernelIdeal.Pieces Cert.KernelIdeal.Payload

/-- Row `d` of the first half and row `64 + d` of the second half of a [1, 128, 1024] block. -/
abbrev rowLo (d : Fin 64) : Fin 128 := ⟨d.val, by have := d.isLt; omega⟩
abbrev rowHi (d : Fin 64) : Fin 128 := ⟨64 + d.val, by have := d.isLt; omega⟩

theorem emb_lo (d : Fin 64) (q : Fin 1024) :
    (Rect.unit (s := S1x128x1024) ![0, 0, 0] S1x64x1024.size inb_S1x128x1024_S1x64x1024_0_0_0).emb (ix3 (0 : Fin 1) d q)
      = ix3 (0 : Fin 1) (rowLo d) q :=
  funext fun a => Fin.ext (by
    rw [Rect.emb_apply]
    match a with
    | ⟨0, _⟩ => rfl
    | ⟨1, _⟩ => show 0 + 1 * d.val = d.val; omega
    | ⟨2, _⟩ => show 0 + 1 * q.val = q.val; omega)

theorem emb_hi (d : Fin 64) (q : Fin 1024) :
    (Rect.unit (s := S1x128x1024) ![0, 64, 0] S1x64x1024.size inb_S1x128x1024_S1x64x1024_0_64_0).emb (ix3 (0 : Fin 1) d q)
      = ix3 (0 : Fin 1) (rowHi d) q :=
  funext fun a => Fin.ext (by
    rw [Rect.emb_apply]
    match a with
    | ⟨0, _⟩ => rfl
    | ⟨1, _⟩ => show 64 + 1 * d.val = 64 + d.val; omega
    | ⟨2, _⟩ => show 0 + 1 * q.val = q.val; omega)

/-- Two stores tile the block: the later one fills rows 64..127, the earlier one rows 0..63. -/
theorem canon_hi (w5 w4 : S1x64x1024.Idx → EReal) (d : Fin 64) (q : Fin 1024) :
    View.canon [(⟨Rect.unit ![0, 64, 0] S1x64x1024.size inb_S1x128x1024_S1x64x1024_0_64_0, w5⟩ : View.Piece (Elt Ideal) S1x128x1024 .f32),
        ⟨Rect.unit ![0, 0, 0] S1x64x1024.size inb_S1x128x1024_S1x64x1024_0_0_0, w4⟩] (ix3 (0 : Fin 1) (rowHi d) q)
      = w5 (ix3 (0 : Fin 1) d q) := by
  rw [← emb_hi, View.canon_cons_emb]

theorem canon_lo (w5 w4 : S1x64x1024.Idx → EReal) (d : Fin 64) (q : Fin 1024) :
    View.canon [(⟨Rect.unit ![0, 64, 0] S1x64x1024.size inb_S1x128x1024_S1x64x1024_0_64_0, w5⟩ : View.Piece (Elt Ideal) S1x128x1024 .f32),
        ⟨Rect.unit ![0, 0, 0] S1x64x1024.size inb_S1x128x1024_S1x64x1024_0_0_0, w4⟩] (ix3 (0 : Fin 1) (rowLo d) q)
      = w4 (ix3 (0 : Fin 1) d q) := by
  have hnone : preimage? (Rect.unit (s := S1x128x1024) ![0, 64, 0] S1x64x1024.size inb_S1x128x1024_S1x64x1024_0_64_0).emb
      (ix3 (0 : Fin 1) (rowLo d) q) = none :=
    preimage?_eq_none fun x hx => by
      have h1 := congrArg (fun i : S1x128x1024.Idx => (i 1 : ℕ)) hx
      have h2 : (64 : ℕ) + 1 * ((x 1 : Fin 64) : ℕ) = d.val := h1
      have := d.isLt
      omega
  rw [View.canon_cons]
  unfold Rect.overlay
  rw [hnone, ← emb_lo, View.canon_cons_emb]

/-! ### An even point -/

theorem sA0_apply (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec Ideal S1x64x2048 .f32) (x1 : Vec Ideal S1x64x2048 .f32) (x2 : Vec Ideal S1x64x1024 .f32) (q : Fin 1024) :
    sout0_A_0 (F := Ideal) c i arg3 harg3 arg4 harg4 arg5 harg5 arg6 harg6 arg7 harg7 arg8 harg8 arg9 harg9 hc0 hc1 x0 x1 x2 (ix2 (0 : Fin 1) q) = Attn.stepM Attn.cNegBig (sc x0 x2 q) := by
  rw [sA0, pay1_eq, pay10_apply, pay6_apply]

theorem sA1_apply (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec Ideal S1x64x2048 .f32) (x1 : Vec Ideal S1x64x2048 .f32) (x2 : Vec Ideal S1x64x1024 .f32) (q : Fin 1024) :
    sout0_A_1 (F := Ideal) c i arg3 harg3 arg4 harg4 arg5 harg5 arg6 harg6 arg7 harg7 arg8 harg8 arg9 harg9 hc0 hc1 x0 x1 x2 (ix2 (0 : Fin 1) q) = Attn.stepL Attn.cNegBig Attn.cZero (sc x0 x2 q) := by
  rw [sA1, pay2_eq, pay13_apply, pay6_apply, pay7_apply]

theorem sA2_apply (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : cond0_0 i) (hc1 : ¬cond0_1 i) (x0 : Vec Ideal S1x64x2048 .f32) (x1 : Vec Ideal S1x64x2048 .f32) (x2 : Vec Ideal S1x64x1024 .f32) (d : Fin 64) (q : Fin 1024) :
    sout0_A_2 (F := Ideal) c i arg3 harg3 arg4 harg4 arg5 harg5 arg6 harg6 arg7 harg7 arg8 harg8 arg9 harg9 hc0 hc1 x0 x1 x2 (ix2 d q)
      = Attn.stepA Attn.cNegBig Attn.cZero (sc x0 x2 q) (fun j => x1 (ix3 (0 : Fin 1) d j)) := by
  rw [sA2, pay3_apply, pay6_apply, pay8_apply]

/-! ### An odd point -/

theorem oB3_lo (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : ¬cond0_0 i) (hc1 : cond0_1 i) (x0 : Vec Ideal S1x64x2048 .f32) (x1 : Vec Ideal S1x64x2048 .f32) (x2 : Vec Ideal S1x64x1024 .f32) (xs0 : Vec Ideal S1x1024 .f32) (xs1 : Vec Ideal S1x1024 .f32) (xs2 : Vec Ideal S64x1024 .f32) (d : Fin 64) (q : Fin 1024) :
    out0_B_3 (F := Ideal) c i arg3 harg3 arg4 harg4 arg5 harg5 arg6 harg6 arg7 harg7 arg8 harg8 arg9 harg9 hc0 hc1 x0 x1 x2 xs0 xs1 xs2 (ix3 (0 : Fin 1) (rowLo d) q)
      = Attn.stepA (xs0 (ix2 (0 : Fin 1) q)) (xs2 (ix2 d q)) (sc x0 x2 q) (fun j => x1 (ix3 (0 : Fin 1) d j))
          * Ideal.div Attn.cOne (Attn.stepL (xs0 (ix2 (0 : Fin 1) q)) (xs1 (ix2 (0 : Fin 1) q)) (sc x0 x2 q)) := by
  rw [oB3, canon_lo, pay4_apply, pay3_apply, pay2_eq, pay13_apply]

theorem oB3_hi (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (hc0 : ¬cond0_0 i) (hc1 : cond0_1 i) (x0 : Vec Ideal S1x64x2048 .f32) (x1 : Vec Ideal S1x64x2048 .f32) (x2 : Vec Ideal S1x64x1024 .f32) (xs0 : Vec Ideal S1x1024 .f32) (xs1 : Vec Ideal S1x1024 .f32) (xs2 : Vec Ideal S64x1024 .f32) (d : Fin 64) (q : Fin 1024) :
    out0_B_3 (F := Ideal) c i arg3 harg3 arg4 harg4 arg5 harg5 arg6 harg6 arg7 harg7 arg8 harg8 arg9 harg9 hc0 hc1 x0 x1 x2 xs0 xs1 xs2 (ix3 (0 : Fin 1) (rowHi d) q) = x2 (ix3 (0 : Fin 1) d q) := by
  rw [oB3, canon_hi, pay5_apply]

end Cert.KernelIdeal.Blocks
end
-- ==== Proof.BlockReads.lean ====
/-
  Each input window's block at a grid point, entry by entry, as entries of the argument array. The grid has
  32 points; point t works on batch t / 8, query tile (t / 2) % 4 and key tile t % 2. A key or value block is
  [1, 64, 2048]: its entry (0, d, j) is the array's entry (t / 8, d, 2048 · (t % 2) + j). A query block is [1, 64, 1024]:
  its entry (0, d, j) is the array's entry (t / 8, d, 1024 · ((t / 2) % 4) + j). On every axis a block's coordinate is
  the block index times the block's extent plus the coordinate inside the block.
-/
import proofs.«137399_j76948634075216_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.BlockReads

open Cert.KernelIdeal Cert.KernelIdeal.Gen

variable {F : FTy → Type} [FloatOps F]
variable (m : (ℓ : Loc nD τ sig) → Buf (Elt F) ℓ)

/-- The three input windows' block indices at every grid point: the batch, zero, and the key tile (keys and values)
    or the query tile (queries). -/
theorem idx_facts : ∀ t : Fin cfg0.N,
    win0_0.index t (0 : Fin 3) = t.val / 8 ∧ win0_0.index t (1 : Fin 3) = 0 ∧ win0_0.index t (2 : Fin 3) = t.val % 2
    ∧ win0_1.index t (0 : Fin 3) = t.val / 8 ∧ win0_1.index t (1 : Fin 3) = 0 ∧ win0_1.index t (2 : Fin 3) = t.val % 2
    ∧ win0_2.index t (0 : Fin 3) = t.val / 8 ∧ win0_2.index t (1 : Fin 3) = 0 ∧ win0_2.index t (2 : Fin 3) = (t.val / 2) % 4 :=
  (by decide +kernel : ∀ t : Fin grid0.N, _)

/-- The key window's block at point `t`, at an entry. -/
theorem iblk0_apply (c : Dev nD) (t : Fin cfg0.N) (x : S1x64x2048.Idx) (k : S4x64x4096.Idx)
    (hk0 : (k 0).val = t.val / 8) (hk1 : (k 1).val = (x 1).val) (hk2 : (k 2).val = 2048 * (t.val % 2) + (x 2).val) :
    (iblk m c 0 t : Vec F S1x64x2048 .f32) x = (m ((c : Thread nD τ).loc main_arg0) : S4x64x4096.Idx → Elt F .f32) k := by
  obtain ⟨e0, e1, e2, -⟩ := idx_facts t
  have hx0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t 0 * 1 + 1 * (x 0).val = (k 0).val; rw [e0, hk0]; omega
  | ⟨1, _⟩ => show win0_0.index t 1 * 64 + 1 * (x 1).val = (k 1).val; rw [e1, hk1]; omega
  | ⟨2, _⟩ => show win0_0.index t 2 * 2048 + 1 * (x 2).val = (k 2).val; rw [e2, hk2]; omega

/-- The value window's block at point `t`, at an entry. -/
theorem iblk1_apply (c : Dev nD) (t : Fin cfg0.N) (x : S1x64x2048.Idx) (k : S4x64x4096.Idx)
    (hk0 : (k 0).val = t.val / 8) (hk1 : (k 1).val = (x 1).val) (hk2 : (k 2).val = 2048 * (t.val % 2) + (x 2).val) :
    (iblk m c 1 t : Vec F S1x64x2048 .f32) x = (m ((c : Thread nD τ).loc main_arg1) : S4x64x4096.Idx → Elt F .f32) k := by
  obtain ⟨-, -, -, e0, e1, e2, -⟩ := idx_facts t
  have hx0 : (x 0).val < 1 := (x 0).isLt
  unfold iblk
  rw [View.read_apply]
  show V m c main_arg1 _ = m (c.tc.loc main_arg1) _
  unfold V
  congr 1
  funext a
  apply Fin.ext
  match a with
  | ⟨0, _⟩ => show win0_1.index t 0 * 1 + 1 * (x 0).val = (k 0).val; rw [e0, hk0]; omega
  | ⟨1, _⟩ => show win0_1.index t 1 * 64 + 1 * (x 1).val = (k 1).val; rw [e1, hk1]; omega
  | ⟨2, _⟩ => show win0_1.index t 2 * 2048 + 1 * (x 2).val = (k 2).val; rw [e2, hk2]; omega

/-- The query window's block at point `t`, at an entry. -/
theorem iblk2_apply (c : Dev nD) (t : Fin cfg0.N) (x : S1x64x1024.Idx) (k : S4x64x4096.Idx)
    (hk0 : (k 0).val = t.val / 8) (hk1 : (k 1).val = (x 1).val)
    (hk2 : (k 2).val = 1024 * ((t.val / 2) % 4) + (x 2).val) :
    (iblk m c 2 t : Vec F S1x64x1024 .f32) x = (m ((c : Thread nD τ).loc main_arg2) : S4x64x4096.Idx → Elt F .f32) k := by
  obtain ⟨-, -, -, -, -, -, e0, e1, e2⟩ := idx_facts t
  have hx0 : (x 0).val < 1 := (x 0).isLt
  unfold iblk
  rw [View.read_apply]
  show V m c main_arg2 _ = m (c.tc.loc main_arg2) _
  unfold V
  congr 1
  funext a
  apply Fin.ext
  match a with
  | ⟨0, _⟩ => show win0_2.index t 0 * 1 + 1 * (x 0).val = (k 0).val; rw [e0, hk0]; omega
  | ⟨1, _⟩ => show win0_2.index t 1 * 64 + 1 * (x 1).val = (k 1).val; rw [e1, hk1]; omega
  | ⟨2, _⟩ => show win0_2.index t 2 * 1024 + 1 * (x 2).val = (k 2).val; rw [e2, hk2]; omega

end Cert.KernelIdeal.BlockReads

end
-- ==== Proof.OutBlock.lean ====
/-
  The result array, block by block.

  The grid has 32 points; point t works on batch t / 8, query tile (t / 2) % 4 and key tile t % 2. The result
  window's block at t is rows 0..127 and query columns 1024 · ((t / 2) % 4) .. + 1023 of batch t / 8, and it is
  written back at the odd points (the last key tile of each query tile).
  * What a write-back writes, when the staged block agrees with a whole-array function at the block's own
    indices of the array, is that function read through the block: the blocks never overhang the array, so
    the whole staged block is written.
  * Every index (b, r, q) of the array lies in the block of the odd point 8 · b + 2 · (q / 1024) + 1.
-/
import proofs.«137399_j76948634075216_2_alg».proof.Proof.Gen.KernelIdeal.Frame
import Idealize.ShloMosaic.Lib.Pipeline.Value
import Idealize.ShloMosaic.Lib.ValueIdx

noncomputable section

namespace Cert.KernelIdeal.OutBlock

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The result window's block index at point `t`, decided over the grid: batch `t / 8`, all rows, query tile `(t / 2) % 4`. -/
theorem index3 : ∀ t : Fin cfg0.N, win0_3.index t (0 : Fin 3) = t.val / 8
    ∧ win0_3.index t (1 : Fin 3) = 0
    ∧ win0_3.index t (2 : Fin 3) = (t.val / 2) % 4 :=
  (by decide +kernel : ∀ t : Fin grid0.N, _)

/-- The array index of entry `y` of the result block at point `t`. -/
def gidx (t : Fin cfg0.N) (y : S1x128x1024.Idx) : S4x128x4096.Idx :=
  ix3 ⟨t.val / 8, by have h : t.val < 32 := lt_of_lt_of_eq t.isLt N_0; omega⟩
    ⟨(y 1).val, (y 1).isLt⟩
    ⟨1024 * ((t.val / 2) % 4) + (y 2).val, by have h : (y 2).val < 1024 := (y 2).isLt; omega⟩

/-- What the write-back at `t` writes, when the staged block `B` agrees with `G` at the block's array indices,
    is `G` read through the block. -/
theorem cut_eq_read (c : Dev nD) (t : Fin cfg0.N) (G : Buf (Elt F) ((c : Thread nD τ).loc main_v0))
    (B : Vec F S1x128x1024 .f32)
    (hB : ∀ y : S1x128x1024.Idx, B y = (G : S4x128x4096.Idx → Elt F .f32) (gidx t y)) :
    (cfg0.win 3).cut (grid0.coords t) B = ((cfg0.win 3).blk t).view.read (Elt F) G := by
  obtain ⟨e0, e1, e2⟩ := index3 t
  funext j
  rw [View.read_apply]
  show B _ = _
  rw [hB]
  show (G : S4x128x4096.Idx → Elt F .f32) _ = (G : S4x128x4096.Idx → Elt F .f32) _
  congr 1
  funext a
  apply Fin.ext
  match a with
  | ⟨0, _⟩ => show t.val / 8 = win0_3.index t (0 : Fin 3) * 1 + 1 * (j 0).val
              have hj : (j 0).val < 1 := (j 0).isLt; omega
  | ⟨1, _⟩ => show (j 1).val = win0_3.index t (1 : Fin 3) * 128 + 1 * (j 1).val; omega
  | ⟨2, _⟩ => show 1024 * ((t.val / 2) % 4) + (j 2).val = win0_3.index t (2 : Fin 3) * 1024 + 1 * (j 2).val; omega

/-- An index of the array is in point `t`'s block iff each coordinate is in the block's range on its axis. -/
theorem mem_blk3 (t : Fin cfg0.N) (i : S4x128x4096.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v0).slice (win0_3.rect t)).set ↔ _
  rw [View.set_slice_whole, Rect.mem_set_unit]
  exact Iff.rfl

/-- Every index `(b, r, q)` of the result array is in the block of a point that writes back: the odd point
    `8 · b + 2 · (q / 1024) + 1`, whose batch is `b` and whose query tile is `q / 1024`. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro i
  have h0 : ((i : S4x128x4096.Idx) 0).val < 4 := ((i : S4x128x4096.Idx) 0).isLt
  have h1 : ((i : S4x128x4096.Idx) 1).val < 128 := ((i : S4x128x4096.Idx) 1).isLt
  have h2 : ((i : S4x128x4096.Idx) 2).val < 4096 := ((i : S4x128x4096.Idx) 2).isLt
  have hN : cfg0.N = 32 := N_0
  let t : Fin cfg0.N := ⟨8 * ((i : S4x128x4096.Idx) 0).val + 2 * (((i : S4x128x4096.Idx) 2).val / 1024) + 1, by omega⟩
  have ht : t.val = 8 * ((i : S4x128x4096.Idx) 0).val + 2 * (((i : S4x128x4096.Idx) 2).val / 1024) + 1 := rfl
  obtain ⟨e0, e1, e2⟩ := index3 t
  refine ⟨t, (flush0_3 t).mpr (by omega), ?_⟩
  rw [mem_blk3]
  intro a
  match a with
  | ⟨0, _⟩ => show win0_3.index t (0 : Fin 3) * 1 ≤ ((i : S4x128x4096.Idx) 0).val
                ∧ ((i : S4x128x4096.Idx) 0).val < win0_3.index t (0 : Fin 3) * 1 + 1
              omega
  | ⟨1, _⟩ => show win0_3.index t (1 : Fin 3) * 128 ≤ ((i : S4x128x4096.Idx) 1).val
                ∧ ((i : S4x128x4096.Idx) 1).val < win0_3.index t (1 : Fin 3) * 128 + 128
              omega
  | ⟨2, _⟩ => show win0_3.index t (2 : Fin 3) * 1024 ≤ ((i : S4x128x4096.Idx) 2).val
                ∧ ((i : S4x128x4096.Idx) 2).val < win0_3.index t (2 : Fin 3) * 1024 + 1024
              omega

end Cert.KernelIdeal.OutBlock

end
-- ==== Proof.Final.lean ====
/-
  The tiled program's result array. The grid visits, for each batch b and query tile, the two key tiles in turn
  (points 2n and 2n+1); the block written back after the odd point holds, at row r < 64 and query column q,
  Attn.tiledOut of the column's scores against the two key tiles and of the two tiles' values, and at row 64 + d the
  query entry: block by block this is Attn.tiledArr of the three argument arrays.
-/
import proofs.«137399_j76948634075216_2_alg».proof.Proof.Blocks
import proofs.«137399_j76948634075216_2_alg».proof.Proof.BlockReads
import proofs.«137399_j76948634075216_2_alg».proof.Proof.OutBlock
import proofs.«137399_j76948634075216_2_alg».proof.Proof.Gen.KernelIdeal.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Final
open Cert.KernelIdeal Cert.KernelIdeal.Gen Cert.KernelIdeal.Blocks Cert.KernelIdeal.Payload Cert.KernelIdeal.BlockReads Cert.KernelIdeal.OutBlock

/-- An odd point after an even one: rows 0..63 of the stored block hold the tiled column value of the two points' blocks. -/
theorem pair_lo (c : Dev nD) (iA iB : grid0.Coords) (A3 : Memref sig .tc .vmem S1x64x2048 .f32) (hA3 : A3.IsWhole) (A4 : Memref sig .tc .vmem S1x64x2048 .f32) (hA4 : A4.IsWhole) (A5 : Memref sig .tc .vmem S1x64x1024 .f32) (hA5 : A5.IsWhole) (A6 : Memref sig .tc .vmem S1x128x1024 .f32) (hA6 : A6.IsWhole) (A7 : Memref sig .tc .vmem S1x1024 .f32) (hA7 : A7.IsWhole) (A8 : Memref sig .tc .vmem S1x1024 .f32) (hA8 : A8.IsWhole) (A9 : Memref sig .tc .vmem S64x1024 .f32) (hA9 : A9.IsWhole) (arg3 : Memref sig .tc .vmem S1x64x2048 .f32) (harg3 : arg3.IsWhole) (arg4 : Memref sig .tc .vmem S1x64x2048 .f32) (harg4 : arg4.IsWhole) (arg5 : Memref sig .tc .vmem S1x64x1024 .f32) (harg5 : arg5.IsWhole) (arg6 : Memref sig .tc .vmem S1x128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole)
    (hA0 : cond0_0 iA) (hA1 : ¬cond0_1 iA) (hB0 : ¬cond0_0 iB) (hB1 : cond0_1 iB)
    (a0 a1 : Vec Ideal S1x64x2048 .f32) (a2 : Vec Ideal S1x64x1024 .f32)
    (x0 x1 : Vec Ideal S1x64x2048 .f32) (x2 : Vec Ideal S1x64x1024 .f32) (d : Fin 64) (q : Fin 1024) :
    out0_B_3 (F := Ideal) c iB arg3 harg3 arg4 harg4 arg5 harg5 arg6 harg6 arg7 harg7 arg8 harg8 arg9 harg9 hB0 hB1 x0 x1 x2
        (sout0_A_0 (F := Ideal) c iA A3 hA3 A4 hA4 A5 hA5 A6 hA6 A7 hA7 A8 hA8 A9 hA9 hA0 hA1 a0 a1 a2)
        (sout0_A_1 (F := Ideal) c iA A3 hA3 A4 hA4 A5 hA5 A6 hA6 A7 hA7 A8 hA8 A9 hA9 hA0 hA1 a0 a1 a2)
        (sout0_A_2 (F := Ideal) c iA A3 hA3 A4 hA4 A5 hA5 A6 hA6 A7 hA7 A8 hA8 A9 hA9 hA0 hA1 a0 a1 a2) (ix3 (0 : Fin 1) (rowLo d) q)
      = Attn.tiledOut (sc a0 a2 q) (sc x0 x2 q) (fun j => a1 (ix3 (0 : Fin 1) d j)) (fun j => x1 (ix3 (0 : Fin 1) d j)) := by
  rw [oB3_lo, sA0_apply, sA1_apply, sA2_apply]
  rfl

variable (m : (ℓ : Loc nD τ sig) → Buf (Elt Ideal) ℓ) (ρ : Dev nD → PrngReg)

/-- The three argument arrays and the result they determine. -/
abbrev argK (c : Dev nD) : Attn.A3 := (m ((c : Thread nD τ).loc main_arg0) : S4x64x4096.Idx → Elt Ideal .f32)
abbrev argV (c : Dev nD) : Attn.A3 := (m ((c : Thread nD τ).loc main_arg1) : S4x64x4096.Idx → Elt Ideal .f32)
abbrev argQ (c : Dev nD) : Attn.A3 := (m ((c : Thread nD τ).loc main_arg2) : S4x64x4096.Idx → Elt Ideal .f32)
abbrev result (c : Dev nD) : Buf (Elt Ideal) ((c : Thread nD τ).loc main_v0) := Attn.tiledArr (argK m c) (argV m c) (argQ m c)

/-- The scores of a point's key block against its query block are the array's scores, scaled. -/
theorem sc_eq (c : Dev nD) (t : Fin cfg0.N) (q : Fin 1024) (j : Fin 2048) (b : Fin 4) (qg : Fin 4096) (kt : Fin 2)
    (hb : b.val = t.val / 8) (hq : qg.val = 1024 * ((t.val / 2) % 4) + q.val) (hk : kt.val = t.val % 2) :
    sc (iblk m c 0 t) (iblk m c 2 t) q j = Attn.dotKQ (argK m c) (argQ m c) b (Attn.tileK kt j) qg * Attn.cScale := by
  unfold sc Attn.dotKQ
  refine congrArg (fun z : EReal => z * Attn.cScale) (Finset.sum_congr rfl fun d _ => ?_)
  exact congrArg₂ (fun x y : EReal => x * y)
    (iblk0_apply m c t (ix3 (0 : Fin 1) d j) (ix3 b d (Attn.tileK kt j)) hb rfl (by show 2048 * kt.val + j.val = 2048 * (t.val % 2) + j.val; rw [hk]))
    (iblk2_apply m c t (ix3 (0 : Fin 1) d q) (ix3 b d qg) hb rfl hq)

/-- A point's value block read at (d, j) is the value array at the point's batch and key tile. -/
theorem vb_eq (c : Dev nD) (t : Fin cfg0.N) (d : Fin 64) (j : Fin 2048) (b : Fin 4) (kt : Fin 2)
    (hb : b.val = t.val / 8) (hk : kt.val = t.val % 2) :
    (iblk m c 1 t : Vec Ideal S1x64x2048 .f32) (ix3 (0 : Fin 1) d j) = argV m c (ix3 b d (Attn.tileK kt j)) :=
  iblk1_apply m c t (ix3 (0 : Fin 1) d j) (ix3 b d (Attn.tileK kt j)) hb rfl (by show 2048 * kt.val + j.val = 2048 * (t.val % 2) + j.val; rw [hk])

/-- The result array at a row below 64, and at a row from 64 up. -/
theorem tiledArr_lo (K V Q : Attn.A3) (b : Fin 4) (r : Fin 128) (qg : Fin 4096) (h : r.val < 64) :
    Attn.tiledArr K V Q (ix3 b r qg)
      = Attn.tiledOut (fun j => Attn.dotKQ K Q b (Attn.tileK 0 j) qg * Attn.cScale) (fun j => Attn.dotKQ K Q b (Attn.tileK 1 j) qg * Attn.cScale)
          (fun j => V (ix3 b ⟨r.val, h⟩ (Attn.tileK 0 j))) (fun j => V (ix3 b ⟨r.val, h⟩ (Attn.tileK 1 j))) := by
  unfold Attn.tiledArr
  exact dif_pos h

theorem tiledArr_hi (K V Q : Attn.A3) (b : Fin 4) (r : Fin 128) (qg : Fin 4096) (h : ¬r.val < 64) :
    Attn.tiledArr K V Q (ix3 b r qg) = Q (ix3 b ⟨r.val - 64, by have := r.isLt; omega⟩ qg) := by
  unfold Attn.tiledArr
  exact dif_neg h

theorem tiledOut_congr {s0 s1 v0 v1 s0' s1' v0' v1' : Fin 2048 → EReal} (e0 : s0 = s0') (e1 : s1 = s1') (e2 : v0 = v0') (e3 : v1 = v1') :
    Attn.tiledOut s0 s1 v0 v1 = Attn.tiledOut s0' s1' v0' v1' := by subst e0 e1 e2 e3; rfl

/-- What the write-back after an odd point writes is the result read through the point's block. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have htl := t.isLt
  have h1 : t.val % 2 = 1 := (flush0_3 t).mp hf
  have h0 : ¬t.val % 2 = 0 := by omega
  have hlt : t.val - 1 < cfg0.N := by omega
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have hA : outsAt0 m c (t.val - 1) hlt = _ := outsAt0_A m c (⟨t.val - 1, hlt⟩ : Fin cfg0.N) h0' h1'
  have hb : t.val / 8 < 4 := by omega
  rw [Value.flushed3_B m c t h0 h1]
  refine cut_eq_read c t (result m c) _ fun y => ?_
  obtain ⟨u, r, q, rfl⟩ : ∃ (u : Fin 1) (r : Fin 128) (q : Fin 1024), y = ix3 u r q := ⟨y 0, y 1, y 2, eq_ix3 y⟩
  obtain rfl : u = 0 := Subsingleton.elim _ _
  have hqg : 1024 * ((t.val / 2) % 4) + q.val < 4096 := by have := q.isLt; omega
  by_cases hr : r.val < 64
  · obtain ⟨d, rfl⟩ : ∃ d : Fin 64, r = rowLo d := ⟨⟨r.val, hr⟩, rfl⟩
    rw [hA]
    dsimp only
    refine (pair_lo c (grid0.coords (⟨t.val - 1, hlt⟩ : Fin cfg0.N)) (grid0.coords t) (ms0_0 (⟨t.val - 1, hlt⟩ : Fin cfg0.N)) (hs0_0 (⟨t.val - 1, hlt⟩ : Fin cfg0.N)) (ms0_1 (⟨t.val - 1, hlt⟩ : Fin cfg0.N)) (hs0_1 (⟨t.val - 1, hlt⟩ : Fin cfg0.N)) (ms0_2 (⟨t.val - 1, hlt⟩ : Fin cfg0.N)) (hs0_2 (⟨t.val - 1, hlt⟩ : Fin cfg0.N)) (ms0_3 (⟨t.val - 1, hlt⟩ : Fin cfg0.N)) (hs0_3 (⟨t.val - 1, hlt⟩ : Fin cfg0.N)) scM0_0 (Memref.isWhole_whole _) scM0_1 (Memref.isWhole_whole _) scM0_2 (Memref.isWhole_whole _) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
      ((hcond0_0 (⟨t.val - 1, hlt⟩ : Fin cfg0.N)).mpr h0') (fun h => h1' ((hcond0_1 (⟨t.val - 1, hlt⟩ : Fin cfg0.N)).mp h)) (fun h => h0 ((hcond0_0 t).mp h)) ((hcond0_1 t).mpr h1)
      (iblk m c 0 (⟨t.val - 1, hlt⟩ : Fin cfg0.N)) (iblk m c 1 (⟨t.val - 1, hlt⟩ : Fin cfg0.N)) (iblk m c 2 (⟨t.val - 1, hlt⟩ : Fin cfg0.N)) (iblk m c 0 t) (iblk m c 1 t) (iblk m c 2 t) d q).trans ?_
    show _ = Attn.tiledArr (argK m c) (argV m c) (argQ m c) (ix3 (⟨t.val / 8, hb⟩ : Fin 4) (rowLo d) (⟨1024 * ((t.val / 2) % 4) + q.val, hqg⟩ : Fin 4096))
    rw [tiledArr_lo _ _ _ _ _ _ hr]
    refine tiledOut_congr (funext fun j => ?_) (funext fun j => ?_) (funext fun j => ?_) (funext fun j => ?_)
    · exact sc_eq m c (⟨t.val - 1, hlt⟩ : Fin cfg0.N) q j ⟨t.val / 8, hb⟩ ⟨1024 * ((t.val / 2) % 4) + q.val, hqg⟩ 0
        (by show t.val / 8 = (t.val - 1) / 8; omega) (by show 1024 * ((t.val / 2) % 4) + q.val = 1024 * (((t.val - 1) / 2) % 4) + q.val; omega)
        (by show 0 = (t.val - 1) % 2; omega)
    · exact sc_eq m c t q j ⟨t.val / 8, hb⟩ ⟨1024 * ((t.val / 2) % 4) + q.val, hqg⟩ 1 rfl rfl (by show 1 = t.val % 2; omega)
    · exact vb_eq m c (⟨t.val - 1, hlt⟩ : Fin cfg0.N) d j ⟨t.val / 8, hb⟩ 0 (by show t.val / 8 = (t.val - 1) / 8; omega) (by show 0 = (t.val - 1) % 2; omega)
    · exact vb_eq m c t d j ⟨t.val / 8, hb⟩ 1 rfl (by show 1 = t.val % 2; omega)
  · obtain ⟨d, rfl⟩ : ∃ d : Fin 64, r = rowHi d :=
      ⟨⟨r.val - 64, by have := r.isLt; omega⟩, Fin.ext (by show r.val = 64 + (r.val - 64); omega)⟩
    refine (oB3_hi c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1)
      (iblk m c 0 t) (iblk m c 1 t) (iblk m c 2 t) _ _ _ d q).trans ?_
    show _ = Attn.tiledArr (argK m c) (argV m c) (argQ m c) (ix3 (⟨t.val / 8, hb⟩ : Fin 4) (rowHi d) (⟨1024 * ((t.val / 2) % 4) + q.val, hqg⟩ : Fin 4096))
    rw [tiledArr_hi _ _ _ _ _ _ hr]
    exact iblk2_apply m c t (ix3 (0 : Fin 1) d q) _ rfl (by show 64 + d.val - 64 = d.val; omega) rfl

/-- Every index of the result lies in the block some odd point writes back, so the result array ends at `result`. -/
theorem final (c : Dev nD) : (dats m 0 c).arrAt 3 cfg0.N = result m c :=
  (dats m 0 c).arrAt_eq_of_cover 3 (result m c) (fun t hf => flushed_eq m c t hf) (cover3 c)

/-- The run of the tiled program: the result array ends at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final
end
-- ==== Proof.RefSide.lean ====
/-
  The plain program's result, index by index. Its scores are the dot products of a key column with a query column
  divided by the square root of 64; a column's shift is the maximum of -∞ and the maximum of its scores over the 4096
  keys; its weights are the exponentials of the shifted scores divided by zero plus their sum; its result is the
  weighted sum of the values, on rows 0..63, and the query array itself on rows 64..127.
-/
import proofs.«137399_j76948634075216_2_alg».proof.Proof.Gen.ReferenceIdeal.Read
import proofs.«137399_j76948634075216_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-- The argument arrays' type. -/
abbrev Arr : Type := (⟨S4x64x4096, .f32⟩ : BufTy).Contents (Elt Ideal)

/-- The scaled score of key `k` against query column `q` in batch `b`. -/
def score (K Q : Arr) (b : Fin 4) (q : Fin 4096) (k : Fin 4096) : EReal :=
  Ideal.div (Attn.dotKQ K Q b k q) (Ideal.sqrt Attn.c64)

/-- A column's shift: the maximum of -∞ and the maximum of its scores. -/
def shift (K Q : Arr) (b : Fin 4) (q : Fin 4096) : EReal := max Attn.cNegInf (Attn.famMax (score K Q b q))

/-- A column's normalizer: zero plus the sum of the exponentials of its shifted scores. -/
def norm (K Q : Arr) (b : Fin 4) (q : Fin 4096) : EReal :=
  Attn.cZero + ∑ j : Fin 4096, Ideal.exp (score K Q b q j - shift K Q b q)

/-- The unscaled scores: the first contraction at (b, k, q) is the dot product over the 64 features. -/
theorem v0_at (K Q : Arr) (b : Fin 4) (k q : Fin 4096) :
    val_main_v0 (F := Ideal) K Q (ix3 b k q) = Attn.dotKQ K Q b k q := by
  rw [val_main_v0_apply]
  unfold Attn.dotKQ
  refine Finset.sum_congr rfl fun d _ => ?_
  have el : lidx_main_v0 (ix3 b k q) d = ix3 b d k :=
    funext fun a => Fin.ext (by match a with | ⟨0, _⟩ => rfl | ⟨1, _⟩ => rfl | ⟨2, _⟩ => rfl)
  have er : ridx_main_v0 (ix3 b k q) d = ix3 b d q :=
    funext fun a => Fin.ext (by match a with | ⟨0, _⟩ => rfl | ⟨1, _⟩ => rfl | ⟨2, _⟩ => rfl)
  rw [el, er]

/-- The divisor, broadcast: the square root of 64 everywhere. -/
theorem v2_at (i : S4x4096x4096.Idx) : val_main_v2 (F := Ideal) i = Ideal.sqrt Attn.c64 := by
  rw [val_main_v2_apply, val_main_v1_apply, val_main_cst_apply]
  rfl

/-- The scaled scores. -/
theorem v3_at (K Q : Arr) (b : Fin 4) (k q : Fin 4096) :
    val_main_v3 (F := Ideal) K Q (ix3 b k q) = score K Q b q k := by
  rw [val_main_v3_apply, v0_at, v2_at]
  rfl

/-- The index over (b, q) with key `k` inserted on the key axis is (b, k, q). -/
theorem lift_at (h : S4x4096x4096.Reduces [1] S4x4096) (b : Fin 4) (q k : Fin 4096) :
    h.lift (ix2 b q) k = ix3 b k q :=
  funext fun a => Fin.ext (by match a with | ⟨0, _⟩ => rfl | ⟨1, _⟩ => rfl | ⟨2, _⟩ => rfl)

/-- The maximum over the key axis, from -∞: the fold of max over the 4096 keys of the column's scores. -/
theorem v4_at (K Q : Arr) (b : Fin 4) (q : Fin 4096) :
    val_main_v4 (F := Ideal) K Q (ix2 b q) = Attn.famMax (score K Q b q) := by
  unfold val_main_v4
  rw [Host.reduce_eq_fold_single (FloatOps.maximumf (F := Ideal) (φ := .f32)) (val_main_v3 (F := Ideal) K Q)
    (val_main_cst_0 (F := Ideal)) reducesTo_S4x4096x4096_S4x4096_d1 (by decide) h_S_ (ix2 b q)]
  unfold Attn.famMax
  refine Finset.fold_congr fun k _ => ?_
  exact (congrArg (val_main_v3 (F := Ideal) K Q) (lift_at _ b q k)).trans (v3_at K Q b k q)

/-- -∞, broadcast. -/
theorem v5_at (i : S4x4096.Idx) : val_main_v5 (F := Ideal) i = Attn.cNegInf := by
  rw [val_main_v5_apply, val_main_cst_1_apply]
  rfl

/-- The column's shift. -/
theorem v6_at (K Q : Arr) (b : Fin 4) (q : Fin 4096) :
    val_main_v6 (F := Ideal) K Q (ix2 b q) = shift K Q b q := by
  rw [val_main_v6_apply, v5_at, v4_at]
  rfl

/-- The shift, broadcast back along the key axis. -/
theorem v8_at (K Q : Arr) (b : Fin 4) (k q : Fin 4096) :
    val_main_v8 (F := Ideal) K Q (ix3 b k q) = shift K Q b q := by
  rw [val_main_v8_apply, val_main_v7_apply]
  have e : idx_main_v7 (idx_main_v8 (ix3 b k q)) = ix2 b q :=
    funext fun a => Fin.ext (by match a with | ⟨0, _⟩ => rfl | ⟨1, _⟩ => rfl)
  rw [e, v6_at]

/-- The exponentials of the shifted scores. -/
theorem v10_at (K Q : Arr) (b : Fin 4) (k q : Fin 4096) :
    val_main_v10 (F := Ideal) K Q (ix3 b k q) = Ideal.exp (score K Q b q k - shift K Q b q) := by
  rw [val_main_v10_apply, val_main_v9_apply, v3_at, v8_at]
  rfl

/-- The normalizer: the sum over the key axis, from zero. -/
theorem v11_at (K Q : Arr) (b : Fin 4) (q : Fin 4096) :
    val_main_v11 (F := Ideal) K Q (ix2 b q) = norm K Q b q := by
  rw [val_main_v11_apply]
  unfold norm
  refine congrArg (Attn.cZero + ·) (Finset.sum_congr rfl fun j _ => ?_)
  have e : idx_main_v11 (ix2 b q) j = ix3 b j q :=
    funext fun a => Fin.ext (by match a with | ⟨0, _⟩ => rfl | ⟨1, _⟩ => rfl | ⟨2, _⟩ => rfl)
  rw [e, v10_at]

/-- The normalizer, broadcast back along the key axis. -/
theorem v13_at (K Q : Arr) (b : Fin 4) (k q : Fin 4096) :
    val_main_v13 (F := Ideal) K Q (ix3 b k q) = norm K Q b q := by
  rw [val_main_v13_apply, val_main_v12_apply]
  have e : idx_main_v12 (idx_main_v13 (ix3 b k q)) = ix2 b q :=
    funext fun a => Fin.ext (by match a with | ⟨0, _⟩ => rfl | ⟨1, _⟩ => rfl)
  rw [e, v11_at]

/-- The weights. -/
theorem v14_at (K Q : Arr) (b : Fin 4) (k q : Fin 4096) :
    val_main_v14 (F := Ideal) K Q (ix3 b k q)
      = Ideal.div (Ideal.exp (score K Q b q k - shift K Q b q)) (norm K Q b q) := by
  rw [val_main_v14_apply, v10_at, v13_at]
  rfl

/-- The weighted sum of the values: the second contraction at (b, r, q) is the plain arrangement's result for the column. -/
theorem v15_at (K V Q : Arr) (b : Fin 4) (r : Fin 64) (q : Fin 4096) :
    val_main_v15 (F := Ideal) K V Q (ix3 b r q) = Attn.plainOut (score K Q b q) (fun k => V (ix3 b r k)) := by
  rw [val_main_v15_apply]
  unfold Attn.plainOut
  refine Finset.sum_congr rfl fun k _ => ?_
  have el : lidx_main_v15 (ix3 b r q) k = ix3 b r k :=
    funext fun a => Fin.ext (by match a with | ⟨0, _⟩ => rfl | ⟨1, _⟩ => rfl | ⟨2, _⟩ => rfl)
  have er : ridx_main_v15 (ix3 b r q) k = ix3 b k q :=
    funext fun a => Fin.ext (by match a with | ⟨0, _⟩ => rfl | ⟨1, _⟩ => rfl | ⟨2, _⟩ => rfl)
  rw [el, er, v14_at]
  rfl

/-- The plain program's result array on rows 0..63. -/
theorem plainArr_lo (K V Q : Arr) (b : Fin 4) (r : Fin 128) (q : Fin 4096) (h : r.val < 64) :
    Attn.plainArr K V Q (ix3 b r q) = Attn.plainOut (score K Q b q) (fun k => V (ix3 b ⟨r.val, h⟩ k)) := by
  unfold Attn.plainArr
  exact dif_pos h

/-- The plain program's result array on rows 64..127. -/
theorem plainArr_hi (K V Q : Arr) (b : Fin 4) (r : Fin 128) (q : Fin 4096) (h : ¬ r.val < 64) :
    Attn.plainArr K V Q (ix3 b r q) = Q (ix3 b ⟨r.val - 64, by have := r.isLt; omega⟩ q) := by
  unfold Attn.plainArr
  exact dif_neg h

/-- The reference's last stage, the two halves joined along the rows, is the plain program's result array. -/
theorem ref_eq (K V Q : Arr) : val_main_v16 (F := Ideal) K V Q = Attn.plainArr K V Q := by
  funext i
  obtain ⟨b, r, q, rfl⟩ : ∃ (b : Fin 4) (r : Fin 128) (q : Fin 4096), i = ix3 b r q := ⟨i 0, i 1, i 2, eq_ix3 i⟩
  unfold val_main_v16
  by_cases h : r.val < 64
  · rw [plainArr_lo K V Q b r q h,
      concatenate_pair_apply_left 1 (val_main_v15 (F := Ideal) K V Q) Q
        concatenates_S4x64x4096_S4x64x4096_S4x128x4096_d1 (ix3 b r q) rfl (ix3 b ⟨r.val, h⟩ q)
        (fun a => by match a with | ⟨0, _⟩ => rfl | ⟨1, _⟩ => rfl | ⟨2, _⟩ => rfl),
      v15_at]
  · rw [plainArr_hi K V Q b r q h]
    exact concatenate_pair_apply_right 1 (val_main_v15 (F := Ideal) K V Q) Q
      concatenates_S4x64x4096_S4x64x4096_S4x128x4096_d1 (ix3 b r q) rfl rfl
      (ix3 b ⟨r.val - 64, by have := r.isLt; omega⟩ q)
      (fun a ha => by
        match a, ha with
        | ⟨0, _⟩, _ => rfl
        | ⟨1, _⟩, ha => exact absurd rfl ha
        | ⟨2, _⟩, _ => rfl)
      (by show (r.val - 64) + 64 = r.val; omega)

/-- The reference's run: every weakly fair execution ends with the result buffer holding the plain program's result
    array of the three argument arrays as they were at the start, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = Attn.plainArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v16_eq (F := Ideal) _ _ _).trans (ref_eq _ _ _)), (h c).2⟩)
    (Cert.ReferenceIdeal.Value.run (F := Ideal) m ρ)

end Cert.ReferenceIdeal.RefValue

end
-- ==== Proof.Finite.lean ====
/-
  From the precondition to real entries. The precondition is the conjunction, over the three argument arrays, of
  "every entry x has |x| < +∞"; on the extended reals |x| is max x (-x), and an extended real whose absolute value
  lies below +∞ is neither +∞ nor -∞, hence the image of a real number.
-/
import proofs.«137399_j76948634075216_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs Cert.Pre_finite_inputs.Gen

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- One array's conjunct of the precondition: if the all-reduce of "|x| < +∞" is one, every entry is a real. -/
theorem real_of_all (x : FVec Ideal S4x64x4096 .f32)
    (h : Host.reduce IntOp.andi (cmpf .olt (Host.absf x)
        (broadcastInDim S4x64x4096 ![] bcast_S_S4x64x4096 (constant (F := Ideal) S_ .f32 0x7F800000#32)))
        (constantI S_ 1 1#1) reducesTo_S4x64x4096_S_d0_1_2 h_S_ ValueIdx.ix0 = 1#1) :
    ∀ i, ∃ r : ℝ, x i = (r : EReal) := by
  intro i
  have e := Host.reduce_andi_all _ _ _ _ _ h i
  exact real_of_abs_lt_inf (x i) e

/-- The precondition at the extended reals says that every entry of the three arrays is a real number. -/
theorem real_of_pre (x0 x1 x2 : FVec Ideal S4x64x4096 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.FiniteInputs

end
-- ==== Proof.Softmax.lean ====
/-
  Softmax over a finite family of reals is invariant under a common shift of the exponents.
-/
import Mathlib.Analysis.SpecialFunctions.Exp
import Mathlib.Algebra.BigOperators.Field

namespace Attn

open Finset

/-- Shifting every exponent by the same real does not change the normalized weighted sum. -/
theorem softmax_shift {ι : Type*} [Fintype ι] [Nonempty ι] (s v : ι → ℝ) (m M : ℝ) :
    ∑ k, v k * (Real.exp (s k - M) / ∑ j, Real.exp (s j - M))
      = (∑ k, v k * Real.exp (s k - m)) * (1 / ∑ j, Real.exp (s j - m)) := by
  have hpos : ∀ c : ℝ, 0 < ∑ j, Real.exp (s j - c) := fun c =>
    Finset.sum_pos (fun j _ => Real.exp_pos _) Finset.univ_nonempty
  have hM := (hpos M).ne'
  have hm := (hpos m).ne'
  have hexp : ∀ k, Real.exp (s k - M) = Real.exp (s k - m) * Real.exp (m - M) := fun k => by
    rw [← Real.exp_add]; congr 1; ring
  have hsum : ∑ j, Real.exp (s j - M) = (∑ j, Real.exp (s j - m)) * Real.exp (m - M) := by
    rw [Finset.sum_mul]; exact Finset.sum_congr rfl fun j _ => hexp j
  have he : Real.exp (m - M) ≠ 0 := (Real.exp_pos _).ne'
  rw [Finset.sum_mul]
  refine Finset.sum_congr rfl fun k _ => ?_
  rw [hsum, hexp k]
  field_simp

end Attn
-- ==== Proof.Consts.lean ====
/-
  The float constants the two attention arrangements spell, as the extended reals their patterns denote:
  0, 1, -∞, 1/8, 64, and a finite negative starting shift (whose exact value never matters, only that it is real).
  Also the square root of 64.
-/
import proofs.«137399_j76948634075216_2_alg».proof.Proof.Spec

noncomputable section

namespace Attn

open Idealize.ShloMosaic

/-- `+0.0` denotes `0`. -/
theorem cZero_eq : cZero = 0 := by
  simp [Ideal.ofBits, Ideal.ieee]

/-- `1.0` denotes `1`. -/
theorem cOne_eq : cOne = 1 := by
  simp [Ideal.ofBits, Ideal.ieee, -EReal.coe_mul]; norm_num

/-- The all-ones exponent with sign bit set and zero fraction denotes `-∞`. -/
theorem cNegInf_eq : cNegInf = ⊥ := by
  simp [Ideal.ofBits, Ideal.ieee]

/-- `0.125` denotes the real `1/8`. -/
theorem cScale_eq : cScale = ((1 / 8 : ℝ) : EReal) := by
  simp [Ideal.ofBits, Ideal.ieee, -EReal.coe_mul]; norm_num

/-- `64.0` denotes the real `64`. -/
theorem c64_eq : c64 = ((64 : ℝ) : EReal) := by
  simp [Ideal.ofBits, Ideal.ieee, -EReal.coe_mul]; norm_num

/-- The starting shift is a (large negative) real. -/
theorem cNegBig_real : ∃ r : ℝ, cNegBig = (r : EReal) := by
  simp [Ideal.ofBits, Ideal.ieee, -EReal.coe_mul]
  exact ⟨_, (EReal.coe_neg _).symm⟩

/-- The square root of `64` is `8`. -/
theorem sqrt_c64 : Ideal.sqrt c64 = ((8 : ℝ) : EReal) := by
  rw [c64_eq, Ideal.sqrt_coe, if_neg (by norm_num)]
  have h : Real.sqrt 64 = 8 := by
    rw [show (64 : ℝ) = 8 * 8 by norm_num]
    exact Real.sqrt_mul_self (by norm_num)
  rw [h]

end Attn

end
-- ==== Proof.Algebra.lean ====
/-
  The tiled and the plain attention arrangements agree on finite inputs.

  Everything is finite, so every quantity is the image of a real and the extended-real operations are the real ones:
  * the running shifts are reals (a maximum of reals, started from a real or, over a nonempty family, from -∞);
  * after the two tiles the numerator is ∑ v k · e^(s k - m) and the normalizer ∑ e^(s k - m) over all 4096 keys,
    for the final shift m, because e^(m₁ - m) · e^(x - m₁) = e^(x - m) and the first tile starts from zero;
  * the plain arrangement's normalized weighted sum does not depend on the shift, so it equals the same quotient.
-/
import proofs.«137399_j76948634075216_2_alg».proof.Proof.Spec
import proofs.«137399_j76948634075216_2_alg».proof.Proof.Softmax
import proofs.«137399_j76948634075216_2_alg».proof.Proof.Consts

noncomputable section

namespace Attn

open Idealize.ShloMosaic Idealize.ShloMosaic.ValueIdx
open scoped BigOperators

/-! ### Coercions -/

/-- A finite sum of reals, read in the extended reals, is the sum of the readings. -/
theorem coe_sum {ι : Type*} (S : Finset ι) (f : ι → ℝ) :
    ∑ k ∈ S, ((f k : ℝ) : EReal) = ((∑ k ∈ S, f k : ℝ) : EReal) := by
  classical
  refine Finset.induction_on S ?_ ?_
  · simp
  · intro a T ha ih
    rw [Finset.sum_insert ha, Finset.sum_insert ha, ih, EReal.coe_add]

/-- The larger of two reals, read in the extended reals. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-! ### The running shift is a real -/

/-- The maximum of a real with a family of reals (folded from -∞) is a real. -/
theorem fold_max_real {ι : Type*} (S : Finset ι) (s : ι → ℝ) :
    ∀ m : ℝ, ∃ r : ℝ, max (m : EReal) (S.fold max ⊥ (fun k => ((s k : ℝ) : EReal))) = (r : EReal) := by
  classical
  refine Finset.induction_on S ?_ ?_
  · intro m
    exact ⟨m, by rw [Finset.fold_empty, max_eq_left bot_le]⟩
  · intro a T ha ih m
    obtain ⟨r, hr⟩ := ih (max m (s a))
    refine ⟨r, ?_⟩
    rw [Finset.fold_insert ha, ← max_assoc, coe_max, hr]

/-- Over a nonempty family the maximum folded from -∞ is a real. -/
theorem fold_max_real_of_nonempty {ι : Type*} (S : Finset ι) (hS : S.Nonempty) (s : ι → ℝ) :
    ∃ r : ℝ, S.fold max ⊥ (fun k => ((s k : ℝ) : EReal)) = (r : EReal) := by
  classical
  obtain ⟨a, ha⟩ := hS
  rw [← Finset.insert_erase ha, Finset.fold_insert (Finset.notMem_erase a S)]
  exact fold_max_real (S.erase a) s (s a)

theorem stepM_real {n : ℕ} (mp : ℝ) (s : Fin n → ℝ) :
    ∃ r : ℝ, stepM (mp : EReal) (fun k => ((s k : ℝ) : EReal)) = (r : EReal) := by
  unfold stepM famMax
  rw [cNegInf_eq]
  exact fold_max_real _ s mp

theorem famMax_real (s : Fin 4096 → ℝ) :
    ∃ r : ℝ, famMax (fun k => ((s k : ℝ) : EReal)) = (r : EReal) := by
  unfold famMax
  rw [cNegInf_eq]
  exact fold_max_real_of_nonempty _ Finset.univ_nonempty s

/-! ### One tile's update, on reals -/

theorem stepL_real {n : ℕ} (mp lp m' : ℝ) (s : Fin n → ℝ)
    (hm : stepM (mp : EReal) (fun k => ((s k : ℝ) : EReal)) = (m' : EReal)) :
    stepL (mp : EReal) (lp : EReal) (fun k => ((s k : ℝ) : EReal))
      = ((Real.exp (mp - m') * lp + ∑ k, Real.exp (s k - m') : ℝ) : EReal) := by
  unfold stepL
  rw [hm]
  simp only [← EReal.coe_sub, Ideal.exp_coe, ← EReal.coe_mul, coe_sum, ← EReal.coe_add]

theorem stepA_real {n : ℕ} (mp ap m' : ℝ) (s v : Fin n → ℝ)
    (hm : stepM (mp : EReal) (fun k => ((s k : ℝ) : EReal)) = (m' : EReal)) :
    stepA (mp : EReal) (ap : EReal) (fun k => ((s k : ℝ) : EReal)) (fun k => ((v k : ℝ) : EReal))
      = ((Real.exp (mp - m') * ap + ∑ k, v k * Real.exp (s k - m') : ℝ) : EReal) := by
  unfold stepA
  rw [hm]
  simp only [← EReal.coe_sub, Ideal.exp_coe, ← EReal.coe_mul, coe_sum, ← EReal.coe_add]

/-! ### The tiled column -/

/-- After both tiles: numerator and normalizer over all keys, at the final shift. -/
theorem tiledOut_real (s0 s1 v0 v1 : Fin 2048 → ℝ) :
    ∃ m : ℝ, tiledOut (fun k => ((s0 k : ℝ) : EReal)) (fun k => ((s1 k : ℝ) : EReal))
        (fun k => ((v0 k : ℝ) : EReal)) (fun k => ((v1 k : ℝ) : EReal))
      = (((∑ k, v0 k * Real.exp (s0 k - m) + ∑ k, v1 k * Real.exp (s1 k - m))
          * (1 / (∑ k, Real.exp (s0 k - m) + ∑ k, Real.exp (s1 k - m))) : ℝ) : EReal) := by
  obtain ⟨mb, hmb⟩ := cNegBig_real
  obtain ⟨m1, hm1⟩ := stepM_real mb s0
  obtain ⟨m2, hm2⟩ := stepM_real m1 s1
  refine ⟨m2, ?_⟩
  have key : ∀ x : ℝ, Real.exp (m1 - m2) * Real.exp (x - m1) = Real.exp (x - m2) := fun x => by
    rw [← Real.exp_add]; exact congrArg Real.exp (by ring)
  unfold tiledOut
  rw [hmb, cZero_eq, cOne_eq, ← EReal.coe_zero, hm1,
    stepL_real mb 0 m1 s0 hm1, stepA_real mb 0 m1 s0 v0 hm1,
    stepL_real m1 _ m2 s1 hm2, stepA_real m1 _ m2 s1 v1 hm2]
  -- the first tile starts from zero, and the second rescales it to the final shift
  have hA : Real.exp (m1 - m2) * (Real.exp (mb - m1) * 0 + ∑ k, v0 k * Real.exp (s0 k - m1))
        + ∑ k, v1 k * Real.exp (s1 k - m2)
      = ∑ k, v0 k * Real.exp (s0 k - m2) + ∑ k, v1 k * Real.exp (s1 k - m2) := by
    rw [mul_zero, zero_add, Finset.mul_sum]
    refine congrArg (· + ∑ k, v1 k * Real.exp (s1 k - m2)) (Finset.sum_congr rfl fun k _ => ?_)
    rw [← key (s0 k)]; ring
  have hL : Real.exp (m1 - m2) * (Real.exp (mb - m1) * 0 + ∑ k, Real.exp (s0 k - m1))
        + ∑ k, Real.exp (s1 k - m2)
      = ∑ k, Real.exp (s0 k - m2) + ∑ k, Real.exp (s1 k - m2) := by
    rw [mul_zero, zero_add, Finset.mul_sum]
    exact congrArg (· + ∑ k, Real.exp (s1 k - m2)) (Finset.sum_congr rfl fun k _ => key (s0 k))
  rw [hA, hL]
  -- the normalizer is positive
  have hpos : 0 < ∑ k, Real.exp (s0 k - m2) + ∑ k, Real.exp (s1 k - m2) :=
    add_pos (Finset.sum_pos (fun k _ => Real.exp_pos _) Finset.univ_nonempty)
      (Finset.sum_pos (fun k _ => Real.exp_pos _) Finset.univ_nonempty)
  rw [Ideal.div_coe hpos.ne', one_mul, ← EReal.coe_mul]

/-! ### The plain column -/

/-- The plain column at any shift `m`. -/
theorem plainOut_real (s v : Fin 4096 → ℝ) (m : ℝ) :
    plainOut (fun k => ((s k : ℝ) : EReal)) (fun k => ((v k : ℝ) : EReal))
      = (((∑ k, v k * Real.exp (s k - m)) * (1 / ∑ j, Real.exp (s j - m)) : ℝ) : EReal) := by
  obtain ⟨M, hM⟩ := famMax_real s
  unfold plainOut
  rw [hM, cNegInf_eq, max_eq_right (bot_le : (⊥ : EReal) ≤ (M : EReal)), cZero_eq, zero_add]
  have hZ : ∑ j, Ideal.exp (((s j : ℝ) : EReal) - (M : EReal)) = ((∑ j, Real.exp (s j - M) : ℝ) : EReal) := by
    simp only [← EReal.coe_sub, Ideal.exp_coe, coe_sum]
  rw [hZ]
  have hpos : 0 < ∑ j, Real.exp (s j - M) :=
    Finset.sum_pos (fun j _ => Real.exp_pos _) Finset.univ_nonempty
  simp only [Ideal.div_coe hpos.ne', ← EReal.coe_sub, Ideal.exp_coe, ← EReal.coe_mul, coe_sum]
  rw [EReal.coe_eq_coe_iff, ← softmax_shift s v m M]
  refine Finset.sum_congr rfl fun k _ => ?_
  rw [mul_one_div]

/-! ### The two tiles are all the keys -/

theorem sum_two_tiles {M : Type*} [AddCommMonoid M] (f : Fin 4096 → M) :
    ∑ k, f k = ∑ j : Fin 2048, f (tileK 0 j) + ∑ j : Fin 2048, f (tileK 1 j) := by
  have h0 : ∀ j : Fin 2048, Fin.castAdd 2048 j = tileK 0 j := fun j => Fin.ext (by simp [tileK])
  have h1 : ∀ j : Fin 2048, Fin.natAdd 2048 j = tileK 1 j := fun j => Fin.ext (by simp [tileK]; omega)
  refine (Fin.sum_univ_add (a := 2048) (b := 2048) f).trans ?_
  simp only [h0, h1]

/-- The tiled and the plain column agree on real scores and values. -/
theorem tiledOut_eq_plainOut (s v : Fin 4096 → ℝ) :
    tiledOut (fun j => ((s (tileK 0 j) : ℝ) : EReal)) (fun j => ((s (tileK 1 j) : ℝ) : EReal))
        (fun j => ((v (tileK 0 j) : ℝ) : EReal)) (fun j => ((v (tileK 1 j) : ℝ) : EReal))
      = plainOut (fun k => ((s k : ℝ) : EReal)) (fun k => ((v k : ℝ) : EReal)) := by
  obtain ⟨m, hm⟩ := tiledOut_real (fun j => s (tileK 0 j)) (fun j => s (tileK 1 j))
    (fun j => v (tileK 0 j)) (fun j => v (tileK 1 j))
  rw [hm, plainOut_real s v m, sum_two_tiles (fun k => v k * Real.exp (s k - m)),
    sum_two_tiles (fun k => Real.exp (s k - m))]

/-! ### The arrays -/

theorem tiledArr_eq_plainArr (K V Q : A3) (hK : ∀ i, ∃ r : ℝ, K i = (r : EReal))
    (hV : ∀ i, ∃ r : ℝ, V i = (r : EReal)) (hQ : ∀ i, ∃ r : ℝ, Q i = (r : EReal)) :
    tiledArr K V Q = plainArr K V Q := by
  choose Kr hKr using hK
  choose Vr hVr using hV
  choose Qr hQr using hQ
  funext i
  unfold tiledArr plainArr
  by_cases h : (i 1).val < 64
  · rw [dif_pos h, dif_pos h]
    -- the unscaled scores are reals
    have hdot : ∀ k : Fin 4096, dotKQ K Q (i 0) k (i 2)
        = ((∑ d : Fin 64, Kr (ix3 (i 0) d k) * Qr (ix3 (i 0) d (i 2)) : ℝ) : EReal) := by
      intro k
      unfold dotKQ
      simp only [hKr, hQr, ← EReal.coe_mul, coe_sum]
    have h8 : Ideal.sqrt c64 = ((8 : ℝ) : EReal) := sqrt_c64
    have key := tiledOut_eq_plainOut
      (fun k => (∑ d : Fin 64, Kr (ix3 (i 0) d k) * Qr (ix3 (i 0) d (i 2))) * (1 / 8))
      (fun k => Vr (ix3 (i 0) ⟨(i 1).val, h⟩ k))
    simp only [hdot, hVr, cScale_eq, h8, Ideal.div_coe (show (8 : ℝ) ≠ 0 by norm_num), ← EReal.coe_mul]
    exact key
  · rw [dif_neg h, dif_neg h]

end Attn

end
-- ==== Proof.lean ====
/-
  Attention over keys computed two ways agrees on the extended reals when the inputs are finite.

  The kernel walks, for every batch and query tile, over two key tiles of 2048 keys, keeping for each query column a
  running shift m, a normalizer l = ∑ e^(s - m) and a numerator a = ∑ v · e^(s - m), rescaling both by e^(m - m') when
  the shift moves, and finally stores a · (1 / l); the reference subtracts the maximum score over all 4096 keys,
  exponentiates, normalizes and takes the weighted sum of the values. Over the reals the quotient does not depend on
  the shift, e^(m1 - m2) · e^(s - m1) = e^(s - m2), and x / sqrt 64 = x · (1 / 8); finiteness of the inputs makes every
  intermediate value a real number, the normalizers positive. Rows 64..127 of the result are the query array in both.

  * the kernel's result array is Attn.tiledArr of its arguments (Proof/Final.lean, over the generated frame run);
  * the reference's result array is Attn.plainArr of its arguments (Proof/RefSide.lean, over the generated run);
  * finite inputs are real-valued (Proof/Finite.lean) and on real-valued arrays the two agree (Proof/Algebra.lean).
-/
import proofs.«137399_j76948634075216_2_alg».proof.Defs
import proofs.«137399_j76948634075216_2_alg».proof.Proof.Gen.Kernel
import proofs.«137399_j76948634075216_2_alg».proof.Proof.Gen.Kernel.Skeleton
import proofs.«137399_j76948634075216_2_alg».proof.Proof.Gen.Kernel.Launch
import proofs.«137399_j76948634075216_2_alg».proof.Proof.Gen.Kernel.Points
import proofs.«137399_j76948634075216_2_alg».proof.Proof.Gen.Kernel.Frame
import proofs.«137399_j76948634075216_2_alg».proof.Proof.Gen.KernelIdeal
import proofs.«137399_j76948634075216_2_alg».proof.Proof.Gen.KernelIdeal.Skeleton
import proofs.«137399_j76948634075216_2_alg».proof.Proof.Gen.KernelIdeal.Launch
import proofs.«137399_j76948634075216_2_alg».proof.Proof.Gen.KernelIdeal.Points
import proofs.«137399_j76948634075216_2_alg».proof.Proof.Gen.KernelIdeal.Frame
import proofs.«137399_j76948634075216_2_alg».proof.Proof.Gen.ReferenceIdeal
import proofs.«137399_j76948634075216_2_alg».proof.Proof.Gen.Pre_finite_inputs
import proofs.«137399_j76948634075216_2_alg».proof.Proof.Gen.KernelIdeal.Value
import proofs.«137399_j76948634075216_2_alg».proof.Proof.Gen.ReferenceIdeal.Run
import proofs.«137399_j76948634075216_2_alg».proof.Proof.Gen.ReferenceIdeal.Read
import proofs.«137399_j76948634075216_2_alg».proof.Proof.Final
import proofs.«137399_j76948634075216_2_alg».proof.Proof.RefSide
import proofs.«137399_j76948634075216_2_alg».proof.Proof.Finite
import proofs.«137399_j76948634075216_2_alg».proof.Proof.Algebra
import Idealize.ShloMosaic.Adequacy
import Idealize.ShloMosaic.Init

noncomputable section

namespace Cert.Proof

open Idealize.ShloMosaic Idealize.SL.Sem

/-- Each program runs, faults nowhere and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, under finite inputs, both programs end with the same result:
    the tiled arrangement and the plain arrangement of one quotient. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hK, hV, hQ⟩ := Cert.FiniteInputs.real_of_pre _ _ _ (hpre c)
  exact (Attn.tiledArr_eq_plainArr _ _ _ hK hV hQ).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
